-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg8 : FVec F S96 .f32) (main_arg9 : FVec F S96x96 .f32) (main_arg10 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg5 : FVec F S96x96 .f32) (main_arg6 : FVec F S96 .f32) (main_arg7 : FVec F S96x96 .f32) (main_arg8 : FVec F S96 .f32) (main_arg9 : FVec F S96x96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x96 .f32) (main_arg1 : IVec S2x800000 32) (main_arg2 : FVec F S800000 .f32) (main_arg3 : FVec F S96x96 .f32) (main_arg4 : FVec F S96 .f32) (main_arg5 : FVec F S96x96 .f32) (main_arg6 : FVec F S96 .f32) (main_arg7 : FVec F S96x96 .f32) (main_arg8 : FVec F S96 .f32) (main_arg9 : FVec F S96x96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S5000x96 : Shape := ⟨2, ![5000, 96]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩

abbrev nBuf : Space → Nat
  | .hbm => 151
  | .vmem => 36
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S96x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S96x96, .f32⟩
  | 10 => ⟨S96, .f32⟩
  | 11 => ⟨S1x96, .f32⟩
  | 12 => ⟨S50000x96, .f32⟩
  | 13 => ⟨S50000x96, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000, .f32⟩
  | 62 => ⟨S850000, .f32⟩
  | 63 => ⟨S850000x1, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x96, .f32⟩
  | 73 => ⟨S850000x96, .f32⟩
  | 74 => ⟨S850000x96, .f32⟩
  | 75 => ⟨S_, .f32⟩
  | 76 => ⟨S50000x96, .f32⟩
  | 77 => ⟨S850000x1, .i32⟩
  | 78 => ⟨S50000x96, .f32⟩
  | 79 => ⟨S1x96, .f32⟩
  | 80 => ⟨S50000x96, .f32⟩
  | 81 => ⟨S1x96, .f32⟩
  | 82 => ⟨S50000x96, .f32⟩
  | 83 => ⟨S50000x96, .f32⟩
  | 84 => ⟨S50000, .i32⟩
  | 85 => ⟨S1x800000, .i32⟩
  | 86 => ⟨S800000, .i32⟩
  | 87 => ⟨S850000, .i32⟩
  | 88 => ⟨S1x800000, .i32⟩
  | 89 => ⟨S800000, .i32⟩
  | 90 => ⟨S850000, .i32⟩
  | 91 => ⟨S_, .f32⟩
  | 92 => ⟨S50000, .f32⟩
  | 93 => ⟨S850000, .f32⟩
  | 94 => ⟨S_, .f32⟩
  | 95 => ⟨S50000, .f32⟩
  | 96 => ⟨S850000x1, .i32⟩
  | 97 => ⟨S50000, .f32⟩
  | 98 => ⟨S_, .f32⟩
  | 99 => ⟨S50000, .f32⟩
  | 100 => ⟨S50000, .i1⟩
  | 101 => ⟨S_, .f32⟩
  | 102 => ⟨S_, .f32⟩
  | 103 => ⟨S50000, .f32⟩
  | 104 => ⟨S50000, .f32⟩
  | 105 => ⟨S_, .f32⟩
  | 106 => ⟨S50000, .f32⟩
  | 107 => ⟨S50000, .i1⟩
  | 108 => ⟨S50000, .f32⟩
  | 109 => ⟨S_, .f32⟩
  | 110 => ⟨S_, .f32⟩
  | 111 => ⟨S50000, .f32⟩
  | 112 => ⟨S50000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000, .f32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x96, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S850000x1, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x96, .f32⟩
  | 15 => ⟨S850000x96, .f32⟩
  | 16 => ⟨S850000x96, .f32⟩
  | 17 => ⟨S_, .f32⟩
  | 18 => ⟨S50000x96, .f32⟩
  | 19 => ⟨S850000x1, .i32⟩
  | 20 => ⟨S50000x96, .f32⟩
  | 21 => ⟨S1x96, .f32⟩
  | 22 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S96x96, .f32⟩
  | .local _ .vmem, ⟨4, _⟩ => ⟨S1x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S96x96, .f32⟩
  | .local _ .vmem, ⟨21, _⟩ => ⟨S96x96, .f32⟩
  | .local _ .vmem, ⟨22, _⟩ => ⟨S1x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S5000x96, .f32⟩
  | .local _ .vmem, ⟨33, _⟩ => ⟨S1x96, .f32⟩
  | .local _ .vmem, ⟨34, _⟩ => ⟨S5000x96, .f32⟩
  | .local _ .vmem, ⟨35, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_v68 : Ref sig .tc := ⟨.hbm, 104, rfl⟩
abbrev main_cst_15 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_v72 : Ref sig .tc := ⟨.hbm, 112, rfl⟩
abbrev main_c_17 : Ref sig .tc := ⟨.hbm, 113, rfl⟩
abbrev main_v73 : Ref sig .tc := ⟨.hbm, 114, rfl⟩
abbrev main_v74 : Ref sig .tc := ⟨.hbm, 115, rfl⟩
abbrev main_c_18 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_19 : Ref sig .tc := ⟨.hbm, 123, rfl⟩
abbrev main_v81 : Ref sig .tc := ⟨.hbm, 124, rfl⟩
abbrev main_v82 : Ref sig .tc := ⟨.hbm, 125, rfl⟩
abbrev main_c_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_21 : Ref sig .tc := ⟨.hbm, 134, rfl⟩
abbrev main_v90 : Ref sig .tc := ⟨.hbm, 135, rfl⟩
abbrev main_v91 : Ref sig .tc := ⟨.hbm, 136, rfl⟩
abbrev main_c_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_23 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S5000x96_S5000x96 : S5000x96.ShapeCasts S5000x96
  dot_S5000x96_S96x96_S5000x96_1_0_0_1_n_n_wf : DotDims.WF S5000x96 S96x96 S5000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .f32 = 32 ∨ (Rect.block (s := S50000x96) S5000x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .f32 = 32 ∨ (Rect.block (s := S50000x96) S5000x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x96.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53_0) S5000x96.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v53_1) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53_1) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S5000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v102) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v103) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S96x96 : Shape := ⟨2, ![96, 96]⟩
abbrev S96 : Shape := ⟨1, ![96]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩

abbrev nBuf : Space → Nat
  | .hbm => 191
  | .vmem => 0
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S96x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S96x96, .f32⟩
  | 10 => ⟨S96, .f32⟩
  | 11 => ⟨S50000x96, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S50000, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S850000x1, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x96, .f32⟩
  | 71 => ⟨S850000x96, .f32⟩
  | 72 => ⟨S850000x96, .f32⟩
  | 73 => ⟨S_, .f32⟩
  | 74 => ⟨S50000x96, .f32⟩
  | 75 => ⟨S850000x1, .i32⟩
  | 76 => ⟨S50000x96, .f32⟩
  | 77 => ⟨S1x96, .f32⟩
  | 78 => ⟨S50000x96, .f32⟩
  | 79 => ⟨S50000x96, .f32⟩
  | 80 => ⟨S50000x96, .f32⟩
  | 81 => ⟨S1x96, .f32⟩
  | 82 => ⟨S50000x96, .f32⟩
  | 83 => ⟨S50000x96, .f32⟩
  | 84 => ⟨S50000x96, .f32⟩
  | 85 => ⟨S50000x96, .f32⟩
  | 86 => ⟨S_, .f32⟩
  | 87 => ⟨S50000x96, .f32⟩
  | 88 => ⟨S50000x96, .f32⟩
  | 89 => ⟨S_, .f32⟩
  | 90 => ⟨S50000x96, .f32⟩
  | 91 => ⟨S50000x96, .f32⟩
  | 92 => ⟨S_, .f32⟩
  | 93 => ⟨S50000x96, .f32⟩
  | 94 => ⟨S50000x96, .f32⟩
  | 95 => ⟨S50000x96, .f32⟩
  | 96 => ⟨S50000x96, .f32⟩
  | 97 => ⟨S50000x96, .f32⟩
  | 98 => ⟨S_, .f32⟩
  | 99 => ⟨S50000x96, .f32⟩
  | 100 => ⟨S50000x96, .f32⟩
  | 101 => ⟨S50000x96, .f32⟩
  | 102 => ⟨S50000, .i32⟩
  | 103 => ⟨S1x800000, .i32⟩
  | 104 => ⟨S800000, .i32⟩
  | 105 => ⟨S850000, .i32⟩
  | 106 => ⟨S1x800000, .i32⟩
  | 107 => ⟨S800000, .i32⟩
  | 108 => ⟨S850000, .i32⟩
  | 109 => ⟨S_, .f32⟩
  | 110 => ⟨S50000, .f32⟩
  | 111 => ⟨S850000, .f32⟩
  | 112 => ⟨S_, .f32⟩
  | 113 => ⟨S50000, .f32⟩
  | 114 => ⟨S850000x1, .i32⟩
  | 115 => ⟨S50000, .f32⟩
  | 116 => ⟨S_, .f32⟩
  | 117 => ⟨S50000, .f32⟩
  | 118 => ⟨S50000, .i1⟩
  | 119 => ⟨S_, .f32⟩
  | 120 => ⟨S_, .f32⟩
  | 121 => ⟨S50000, .f32⟩
  | 122 => ⟨S50000, .f32⟩
  | 123 => ⟨S_, .f32⟩
  | 124 => ⟨S50000, .f32⟩
  | 125 => ⟨S50000, .i1⟩
  | 126 => ⟨S50000, .f32⟩
  | 127 => ⟨S_, .f32⟩
  | _ => ⟨S50000x96, .f32⟩

abbrev hbmTy0_1 (i : Nat) : BufTy := match i % 128 with
  | 0 => ⟨S_, .f32⟩
  | 1 => ⟨S50000, .f32⟩
  | 2 => ⟨S50000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000, .f32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000, .f32⟩
  | 22 => ⟨S850000, .f32⟩
  | 23 => ⟨S850000x1, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x96, .f32⟩
  | 33 => ⟨S850000x96, .f32⟩
  | 34 => ⟨S850000x96, .f32⟩
  | 35 => ⟨S_, .f32⟩
  | 36 => ⟨S50000x96, .f32⟩
  | 37 => ⟨S850000x1, .i32⟩
  | 38 => ⟨S50000x96, .f32⟩
  | 39 => ⟨S1x96, .f32⟩
  | 40 => ⟨S50000x96, .f32⟩
  | 41 => ⟨S50000x96, .f32⟩
  | 42 => ⟨S50000x96, .f32⟩
  | 43 => ⟨S1x96, .f32⟩
  | 44 => ⟨S50000x96, .f32⟩
  | 45 => ⟨S50000x96, .f32⟩
  | 46 => ⟨S50000x96, .f32⟩
  | 47 => ⟨S50000x96, .f32⟩
  | 48 => ⟨S_, .f32⟩
  | 49 => ⟨S50000x96, .f32⟩
  | 50 => ⟨S50000x96, .f32⟩
  | 51 => ⟨S_, .f32⟩
  | 52 => ⟨S50000x96, .f32⟩
  | 53 => ⟨S50000x96, .f32⟩
  | 54 => ⟨S_, .f32⟩
  | 55 => ⟨S50000x96, .f32⟩
  | 56 => ⟨S50000x96, .f32⟩
  | 57 => ⟨S50000x96, .f32⟩
  | 58 => ⟨S50000x96, .f32⟩
  | 59 => ⟨S50000x96, .f32⟩
  | 60 => ⟨S_, .f32⟩
  | 61 => ⟨S50000x96, .f32⟩
  | 62 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_call3_v0 : Ref sig .tc := ⟨.hbm, 120, rfl⟩
abbrev main_call3_v1 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_call4_v0 : Ref sig .tc := ⟨.hbm, 128, rfl⟩
abbrev main_call4_v1 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_c_21 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_22 : Ref sig .tc := ⟨.hbm, 141, rfl⟩
abbrev main_v96 : Ref sig .tc := ⟨.hbm, 142, rfl⟩
abbrev main_v97 : Ref sig .tc := ⟨.hbm, 143, rfl⟩
abbrev main_c_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_24 : Ref sig .tc := ⟨.hbm, 152, rfl⟩
abbrev main_v105 : Ref sig .tc := ⟨.hbm, 153, rfl⟩
abbrev main_v106 : Ref sig .tc := ⟨.hbm, 154, rfl⟩
abbrev main_c_25 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_27 : Ref sig .tc := ⟨.hbm, 176, rfl⟩
abbrev main_v126 : Ref sig .tc := ⟨.hbm, 177, rfl⟩
abbrev main_v127 : Ref sig .tc := ⟨.hbm, 178, rfl⟩
abbrev main_cst_28 : Ref sig .tc := ⟨.hbm, 179, rfl⟩
abbrev main_v128 : Ref sig .tc := ⟨.hbm, 180, rfl⟩
abbrev main_v129 : Ref sig .tc := ⟨.hbm, 181, rfl⟩
abbrev main_cst_29 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_call5_cst : Ref sig .tc := ⟨.hbm, 188, rfl⟩
abbrev main_call5_v0 : Ref sig .tc := ⟨.hbm, 189, rfl⟩
abbrev main_v135 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

class Facts : Prop extends Facts₀ where

variable [Facts]
-- ==== Proof.Spec.lean ====
/-
  The network both programs compute, as one function of the eleven argument arrays.

  One layer takes the node features `x` (50000 rows of 96), the edge list, the edge weights, a weight matrix `W` with a
  bias `b` and a gate matrix `Wr` with a bias `br`, and returns

      max ((1 - g) · x + g · (A (x · W) + b), 0),        g = 1 / (1 + exp (-(x · Wr + br))),

  entry by entry, where `A` is the edge aggregation: a fixed composition of gathers along the edge list, products with
  the edge weights and scatter-additions into the nodes. The network is two such layers. `A` is never opened here: it
  is the same composition of the same operations on both sides, applied to a product of the same two matrices.
-/
import proofs.«121213_j7988639171255_1_alg».proof.Proof.Gen.ReferenceIdeal.Read

noncomputable section

namespace Cert.Gcn

open Cert.ReferenceIdeal Cert.ReferenceIdeal.Gen Cert.ReferenceIdeal.Read Idealize.ShloMosaic

/-- Node features, and every other 50000 × 96 array of the layer. -/
abbrev Mat := FVec Ideal S50000x96 .f32
/-- A 96 × 96 matrix. -/
abbrev Wt := FVec Ideal S96x96 .f32
/-- A bias vector. -/
abbrev Bias := FVec Ideal S96 .f32
/-- A bias held as a one-row matrix. -/
abbrev Row := FVec Ideal S1x96 .f32
/-- The edge list: sources in row 0, targets in row 1. -/
abbrev Edges := IVec S2x800000 32
/-- The edge weights. -/
abbrev EdgeW := FVec Ideal S800000 .f32

/-- The matrix product `x · W`. -/
def prod (x : Mat) (W : Wt) : Mat :=
  Host.dotGeneral (F := Ideal) dot_S50000x96_S96x96_S50000x96_1_0_0_1_n_n none x W

/-- The array that is `1` everywhere. -/
def ones : Mat := broadcastInDim S50000x96 ![] bcast_S_S50000x96 (constant (F := Ideal) S_ .f32 0x3F800000#32)

/-- The array that is `0` everywhere. -/
def zeros : Mat := broadcastInDim S50000x96 ![] bcast_S_S50000x96 (constant (F := Ideal) S_ .f32 0x00000000#32)

/-- A bias vector as a one-row matrix. -/
def asRow (b : Bias) : Row := broadcastInDim S1x96 ![1] bcast_S96_S1x96_1 b

/-- A one-row matrix repeated down the 50000 rows. -/
def rowsOf (r : Row) : Mat := broadcastInDim S50000x96 ![0, 1] bcast_S1x96_S50000x96_0_1 r

/-- The gate `1 / (1 + exp (-(x · Wr + r)))`, the bias a row. -/
def gateR (x : Mat) (Wr : Wt) (r : Row) : Mat :=
  Host.divf (F := Ideal) (s := S50000x96) (φ := .f32) ones (addf ones (Host.exp (F := Ideal) (Host.negf (F := Ideal) (addf (prod x Wr) (rowsOf r)))))

/-- An index vector with its negative entries moved up by 50000. -/
def wrapIdx (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- An index vector as a one-column matrix. -/
def idxCol (v : IVec S850000 32) : IVec S850000x1 32 := broadcastInDim S850000x1 ![0] bcast_S850000_S850000x1_0 v

/-- The second half of the edge aggregation, from a vector `dinv` of per-node factors, two index vectors `row` and `col`,
    a vector `wt` of weights and the rows of `h`: entry `k`'s message is the row of `h` gathered at `row k` times `dinv`
    gathered at `row k`, `wt k`, and `dinv` gathered at `col k`; the messages are scatter-added at `col`. -/
def aggCore (dinv : FVec Ideal S50000 .f32) (row col : IVec S850000 32) (wt : FVec Ideal S850000 .f32) (h : Mat) : Mat :=
  Host.scatterAdd (F := Ideal) scatter_S50000x96_S850000x1_S850000x96_1_0_0_1 zeros (idxCol col)
    (mulf (F := Ideal) (s := S850000x96) (φ := .f32)
      (broadcastInDim S850000x96 ![0, 1] bcast_S850000x1_S850000x96_0_1
        (broadcastInDim S850000x1 ![0] bcast_S850000_S850000x1_0
          (mulf (F := Ideal) (s := S850000) (φ := .f32)
            (mulf (F := Ideal) (s := S850000) (φ := .f32)
              (Host.gather (α := Ideal .f32) gather_S50000_S850000x1_S850000_n_0_n_n_0_1_1 dinv (idxCol (wrapIdx row))) wt)
            (Host.gather (α := Ideal .f32) gather_S50000_S850000x1_S850000_n_0_n_n_0_1_1 dinv (idxCol (wrapIdx col))))))
      (Host.gather (α := Ideal .f32) gather_S50000x96_S850000x1_S850000x96_1_0_n_n_0_1_196 h (idxCol (wrapIdx row))))

/-- The edge aggregation of the rows of `h`: `aggCore` at the factors, index vectors and weights that the reference's
    first operations make of the edge list and the edge weights (read as they stand, never opened). -/
def agg (h : Mat) (e : Edges) (w : EdgeW) : Mat :=
  aggCore (val_main_v19 (F := Ideal) e w) (val_main_v4 (F := Ideal) e) (val_main_v7 (F := Ideal) e) (val_main_v9 (F := Ideal) w) h

/-- The gated residual with the rectifier: `max ((1 - g) · x + g · (a + r), 0)`, the bias a row. -/
def mixR (x g a : Mat) (r : Row) : Mat :=
  maximumf (F := Ideal) (s := S50000x96) (φ := .f32) (addf (mulf (subf ones g) x) (mulf g (addf a (rowsOf r)))) zeros

/-- One layer. -/
def layer (x : Mat) (e : Edges) (w : EdgeW) (W : Wt) (b : Bias) (Wr : Wt) (br : Bias) : Mat :=
  mixR x (gateR x Wr (asRow br)) (agg (prod x W) e w) (asRow b)

/-- The two layers. -/
def net (x : Mat) (e : Edges) (w : EdgeW) (W0 : Wt) (b0 : Bias) (W1 : Wt) (b1 : Bias) (Wr0 : Wt) (br0 : Bias)
    (Wr1 : Wt) (br1 : Bias) : Mat :=
  layer (layer x e w W0 b0 Wr0 br0) e w W1 b1 Wr1 br1

set_option maxRecDepth 65536 in
/-- The reference's result, read one operation at a time, is the network of its arguments: the same operations in
    the same order (the second layer's copy of the edge bookkeeping is the first layer's, operation for operation). -/
theorem reference_eq (x : Mat) (e : Edges) (w : EdgeW) (W0 : Wt) (b0 : Bias) (W1 : Wt) (b1 : Bias) (Wr0 : Wt) (br0 : Bias)
    (Wr1 : Wt) (br1 : Bias) :
    val_main_v135 (F := Ideal) x e w W0 b0 W1 b1 Wr0 br0 Wr1 br1 = net x e w W0 b0 W1 b1 Wr0 br0 Wr1 br1 := rfl

end Cert.Gcn

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.Block.lean ====
/-
  One tile of the kernel's work, read entry by entry against the layer's whole-array functions.

  Each launch of the kernel works on a tile of 5000 consecutive rows. Entry `(p, q)` of tile `t` is entry
  `(5000 t + p, q)` of the array. Read there,
  * the tile's matrix product (into a zero accumulator, the operands' change of format the identity at the ideal
    values) is the whole product: both are the sum over `k` of `x (5000 t + p, k) · W (k, q)`;
  * the tile's gate is the whole gate: the logistic function is `1 / (1 + exp (-v))` with the literal `1` the number
    one, and the bias row repeated down the tile reads the row at column `q` as the row repeated down the array does;
  * the tile's gated residual is the whole one: the same arithmetic on the same numbers.
-/
import proofs.«121213_j7988639171255_1_alg».proof.Proof.Gen.KernelIdeal.Skeleton
import proofs.«121213_j7988639171255_1_alg».proof.Proof.Spec
import proofs.«121213_j7988639171255_1_alg».proof.Proof.LibMatSum
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open Cert.Gcn (Mat Wt Row)

/-- `a` is the tile of rows `5000 t …` of `X`. -/
def IsTile (t : ℕ) (a : S5000x96.Idx → EReal) (X : Mat) : Prop :=
  ∀ (y : S5000x96.Idx) (i : S50000x96.Idx), (i 0).val = 5000 * t + (y 0).val → (i 1).val = (y 1).val → a y = X i

/-- A tile cast to its own shape is the same tile. -/
theorem IsTile.cast {t : ℕ} {a : S5000x96.Idx → EReal} {X : Mat} (h : IsTile t a X) (hc : S5000x96.ShapeCasts S5000x96) :
    IsTile t (shapeCast S5000x96 a hc) X := by
  rw [shapeCast_self]; exact h

/-- The whole product at an entry. -/
theorem prod_entry (X : Mat) (W : Wt) (r : Fin 50000) (j : Fin 96) :
    Cert.Gcn.prod X W (ix2 r j) = ∑ k : Fin 96, X (ix2 r k) * W (ix2 k j) := by
  unfold Cert.Gcn.prod
  exact MatSum.dotGeneral_entry _ none X W r j

/-- The tile's product is the whole product read in the tile's rows. -/
theorem mm_tile (a : FVec Ideal S5000x96 .bf16) (b : FVec Ideal S96x96 .bf16) (X : Mat) (W : Wt) (t : ℕ)
    (ha : IsTile t a X) (hb : ∀ q, b q = W q) (y : S5000x96.Idx) (i : S50000x96.Idx)
    (h0 : (i 0).val = 5000 * t + (y 0).val) (h1 : (i 1).val = (y 1).val) :
    matmul dot_S5000x96_S96x96_S5000x96_1_0_0_1_n_n none a b (constant (F := Ideal) S5000x96 .f32 0x00000000#32) y
      = Cert.Gcn.prod X W i := by
  obtain ⟨p, q, rfl⟩ : ∃ (p : Fin 5000) (q : Fin 96), y = ix2 p q := ⟨y 0, y 1, eq_ix2 y⟩
  obtain ⟨r, j, rfl⟩ : ∃ (r : Fin 50000) (j : Fin 96), i = ix2 r j := ⟨i 0, i 1, eq_ix2 i⟩
  have hj : j = q := Fin.ext h1
  subst hj
  rw [prod_entry]
  refine (MatSum.matmul_zero_entry _ none a b p j).trans ?_
  refine Finset.sum_congr rfl fun k _ => ?_
  rw [ha (ix2 p k) (ix2 r k) h0 rfl, hb]

/-- The array of ones, anywhere. -/
theorem ones_apply (i : S50000x96.Idx) : Cert.Gcn.ones i = 1 := by
  unfold Cert.Gcn.ones
  rw [broadcastInDim_scalar_apply]
  exact Ideal.ofBits_one_f32

/-- The array of zeros, anywhere, as the zero word's value. -/
theorem zeros_apply (i : S50000x96.Idx) : Cert.Gcn.zeros i = Ideal.ofBits .f32 0x00000000#32 := by
  unfold Cert.Gcn.zeros
  rw [broadcastInDim_scalar_apply]
  rfl

/-- A row repeated down the array, at `(r, j)`: the row at `j`. -/
theorem rowsOf_apply (R : Row) (r : Fin 50000) (j : Fin 96) : Cert.Gcn.rowsOf R (ix2 r j) = R (ix2 (0 : Fin 1) j) := by
  unfold Cert.Gcn.rowsOf
  refine broadcastInDim_apply _ _ R (ix2 r j) (ix2 (0 : Fin 1) j) (fun a => ?_)
  match a with
  | ⟨0, _⟩ => rfl
  | ⟨1, _⟩ => exact (show j.val = if (96 : ℕ) = 1 then 0 else j.val by rw [if_neg (by decide)])

/-- A row cast to its own shape and repeated down a tile, at `(p, q)`: the row at `q`. -/
theorem tileRow_apply (x3 : S1x96.Idx → EReal) (hc : S1x96.ShapeCasts S1x96) (hb : S1x96.Broadcasts S5000x96)
    (p : Fin 5000) (q : Fin 96) :
    broadcastTo S5000x96 (shapeCast S1x96 x3 hc) hb (ix2 p q) = x3 (ix2 (0 : Fin 1) q) := by
  rw [shapeCast_self]
  refine broadcastTo_apply _ hb (ix2 p q) (ix2 (0 : Fin 1) q) (fun ax => ?_)
  match ax with
  | ⟨0, _⟩ => show 0 = if (1 : ℕ) = 1 then 0 else p.val; rw [if_pos rfl]
  | ⟨1, _⟩ => exact (show q.val = if (96 : ℕ) = 1 then 0 else q.val by rw [if_neg (by decide)])

/-- The two bias rows read the same number when the tile's row is the array's. -/
theorem bias_tile (x3 : S1x96.Idx → EReal) (R : Row) (hr : ∀ q, x3 q = R q) (hc : S1x96.ShapeCasts S1x96)
    (hb : S1x96.Broadcasts S5000x96) (y : S5000x96.Idx) (i : S50000x96.Idx) (h1 : (i 1).val = (y 1).val) :
    broadcastTo S5000x96 (shapeCast S1x96 x3 hc) hb y = Cert.Gcn.rowsOf R i := by
  obtain ⟨p, q, rfl⟩ : ∃ (p : Fin 5000) (q : Fin 96), y = ix2 p q := ⟨y 0, y 1, eq_ix2 y⟩
  obtain ⟨r, j, rfl⟩ : ∃ (r : Fin 50000) (j : Fin 96), i = ix2 r j := ⟨i 0, i 1, eq_ix2 i⟩
  have hj : j = q := Fin.ext h1
  subst hj
  rw [tileRow_apply, rowsOf_apply, hr]

/-- The tile's gate is the whole gate read in the tile's rows. -/
theorem gate_tile (mmv : FVec Ideal S5000x96 .f32) (x3 : S1x96.Idx → EReal) (X : Mat) (Wr : Wt) (R : Row)
    (hc : S1x96.ShapeCasts S1x96) (hb : S1x96.Broadcasts S5000x96)
    (y : S5000x96.Idx) (i : S50000x96.Idx) (hmm : mmv y = Cert.Gcn.prod X Wr i) (hr : ∀ q, x3 q = R q)
    (h1 : (i 1).val = (y 1).val) :
    logistic (F := Ideal) (addf mmv (broadcastTo S5000x96 (shapeCast S1x96 x3 hc) hb)) y = Cert.Gcn.gateR X Wr R i := by
  show Ideal.logistic (mmv y + broadcastTo S5000x96 (shapeCast S1x96 x3 hc) hb y)
    = Ideal.div (Cert.Gcn.ones i) (Cert.Gcn.ones i + Ideal.exp (-(Cert.Gcn.prod X Wr i + Cert.Gcn.rowsOf R i)))
  rw [ones_apply, hmm, bias_tile x3 R hr hc hb y i h1]
  rfl

/-- The tile's gated residual is the whole one read in the tile's rows. -/
theorem mix_tile (x g a : S5000x96.Idx → EReal) (x3 : S1x96.Idx → EReal) (X G A : Mat) (R : Row)
    (hc : S1x96.ShapeCasts S1x96) (hb : S1x96.Broadcasts S5000x96)
    (y : S5000x96.Idx) (i : S50000x96.Idx) (hx : x y = X i) (hg : g y = G i) (ha : a y = A i) (hr : ∀ q, x3 q = R q)
    (h1 : (i 1).val = (y 1).val) :
    maximumf (F := Ideal) (addf (mulf (subf (broadcast S5000x96 (Scalar.ofBits (F := Ideal) .f32 0x3F800000#32)) g) x)
        (mulf g (addf a (broadcastTo S5000x96 (shapeCast S1x96 x3 hc) hb))))
      (broadcast S5000x96 (Scalar.ofBits (F := Ideal) .f32 0x00000000#32)) y
      = Cert.Gcn.mixR X G A R i := by
  show max ((Ideal.ofBits .f32 0x3F800000#32 - g y) * x y + g y * (a y + broadcastTo S5000x96 (shapeCast S1x96 x3 hc) hb y))
      (Ideal.ofBits .f32 0x00000000#32)
    = max ((Cert.Gcn.ones i - G i) * X i + G i * (A i + Cert.Gcn.rowsOf R i)) (Cert.Gcn.zeros i)
  rw [ones_apply, zeros_apply, hx, hg, ha, bias_tile x3 R hr hc hb y i h1, Ideal.ofBits_one_f32]

end Cert.KernelIdeal.Block

end
-- ==== Proof.Reg0.lean ====
/-
  Launch 0 of the kernel (the two matrix products and the gate), as whole arrays.

  The launch walks ten tiles of 5000 rows. At tile `t` it reads rows `5000 t …` of the features and the whole of the
  two 96 × 96 matrices and of the bias row, and writes the tile's product with the first matrix into rows `5000 t …` of
  one result and the tile's gate into the same rows of the other. The ten tiles cover the 50000 rows, so after the
  launch the first result is the whole product and the second the whole gate.
-/
import proofs.«121213_j7988639171255_1_alg».proof.Proof.Gen.KernelIdeal.Frame
import proofs.«121213_j7988639171255_1_alg».proof.Proof.Block
import Idealize.ShloMosaic.Lib.Pipeline.Value
import Idealize.ShloMosaic.Lib.ValueIdx

set_option maxRecDepth 16384

noncomputable section

namespace Cert.KernelIdeal.Reg0

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem idx0 : ∀ t : Fin cfg0.N, win0_0.index t 0 = t.val ∧ win0_0.index t 1 = 0 :=
  (by decide +kernel : ∀ t : Fin grid0.N, _)

theorem idx1 : ∀ t : Fin cfg0.N, win0_1.index t 0 = 0 ∧ win0_1.index t 1 = 0 :=
  (by decide +kernel : ∀ t : Fin grid0.N, _)

theorem idx2 : ∀ t : Fin cfg0.N, win0_2.index t 0 = 0 ∧ win0_2.index t 1 = 0 :=
  (by decide +kernel : ∀ t : Fin grid0.N, _)

theorem idx3 : ∀ t : Fin cfg0.N, win0_3.index t 0 = 0 ∧ win0_3.index t 1 = 0 :=
  (by decide +kernel : ∀ t : Fin grid0.N, _)

theorem idx4 : ∀ t : Fin cfg0.N, win0_4.index t 0 = t.val ∧ win0_4.index t 1 = 0 :=
  (by decide +kernel : ∀ t : Fin grid0.N, _)

theorem idx5 : ∀ t : Fin cfg0.N, win0_5.index t 0 = t.val ∧ win0_5.index t 1 = 0 :=
  (by decide +kernel : ∀ t : Fin grid0.N, _)

/-- Window 0's block at point `t` is the tile of rows `5000 t …` of its array. -/
theorem tile0 (c : Dev nD) (t : Fin cfg0.N) : IsTile t.val (iblk0 V c 0 t) (V c main_arg0) := by
  intro y i h0 h1
  have e0 : win0_0.index t 0 = t.val := (idx0 t).1
  have e1 : win0_0.index t 1 = 0 := (idx0 t).2
  unfold iblk0
  rw [View.read_apply]
  show V c main_arg0 (((cfg0.win 0).blk t).view.emb y) = V c main_arg0 i
  refine congrArg _ ?_
  funext a; apply Fin.ext
  match a with
  | ⟨0, _⟩ => show win0_0.index t 0 * 5000 + 1 * (y 0).val = (i 0).val; omega
  | ⟨1, _⟩ => show win0_0.index t 1 * 96 + 1 * (y 1).val = (i 1).val; omega

/-- Window 1's block at every point is its whole array. -/
theorem whole1 (c : Dev nD) (t : Fin cfg0.N) (q : S96x96.Idx) : iblk0 V c 1 t q = V c main_arg3 q := by
  have e0 : win0_1.index t 0 = 0 := (idx1 t).1
  have e1 : win0_1.index t 1 = 0 := (idx1 t).2
  unfold iblk0
  rw [View.read_apply]
  show V c main_arg3 (((cfg0.win 1).blk t).view.emb q) = V c main_arg3 q
  refine congrArg _ ?_
  funext a; apply Fin.ext
  match a with
  | ⟨0, _⟩ => show win0_1.index t 0 * 96 + 1 * (q 0).val = (q 0).val; omega
  | ⟨1, _⟩ => show win0_1.index t 1 * 96 + 1 * (q 1).val = (q 1).val; omega

/-- Window 2's block at every point is its whole array. -/
theorem whole2 (c : Dev nD) (t : Fin cfg0.N) (q : S96x96.Idx) : iblk0 V c 2 t q = V c main_arg7 q := by
  have e0 : win0_2.index t 0 = 0 := (idx2 t).1
  have e1 : win0_2.index t 1 = 0 := (idx2 t).2
  unfold iblk0
  rw [View.read_apply]
  show V c main_arg7 (((cfg0.win 2).blk t).view.emb q) = V c main_arg7 q
  refine congrArg _ ?_
  funext a; apply Fin.ext
  match a with
  | ⟨0, _⟩ => show win0_2.index t 0 * 96 + 1 * (q 0).val = (q 0).val; omega
  | ⟨1, _⟩ => show win0_2.index t 1 * 96 + 1 * (q 1).val = (q 1).val; omega

/-- Window 3's block at every point is its whole array. -/
theorem whole3 (c : Dev nD) (t : Fin cfg0.N) (q : S1x96.Idx) : iblk0 V c 3 t q = V c main_v0 q := by
  have e0 : win0_3.index t 0 = 0 := (idx3 t).1
  have e1 : win0_3.index t 1 = 0 := (idx3 t).2
  unfold iblk0
  rw [View.read_apply]
  show V c main_v0 (((cfg0.win 3).blk t).view.emb q) = V c main_v0 q
  refine congrArg _ ?_
  funext a; apply Fin.ext
  match a with
  | ⟨0, _⟩ => show win0_3.index t 0 * 1 + 1 * (q 0).val = (q 0).val; omega
  | ⟨1, _⟩ => show win0_3.index t 1 * 96 + 1 * (q 1).val = (q 1).val; omega

/-- Entry `y` of output window 4's block at point `t` sits at row `5000 t + y 0`, column `y 1` of its array. -/
theorem emb4 (t : Fin cfg0.N) (y : S5000x96.Idx) :
    ((((cfg0.win 4).blk t).view.emb y) 0).val = 5000 * t.val + (y 0).val
    ∧ ((((cfg0.win 4).blk t).view.emb y) 1).val = (y 1).val := by
  have e0 : win0_4.index t 0 = t.val := (idx4 t).1
  have e1 : win0_4.index t 1 = 0 := (idx4 t).2
  constructor
  · show win0_4.index t 0 * 5000 + 1 * (y 0).val = _; omega
  · show win0_4.index t 1 * 96 + 1 * (y 1).val = _; omega

/-- An index of the array is in point `t`'s block of window 4 iff each coordinate is in the block's range. -/
theorem mem_blk4 (t : Fin cfg0.N) (i : S50000x96.Idx) :
    i ∈ ((cfg0.win 4).blk t).view.set ↔ ∀ a : Fin 2, win0_4.index t a * S5000x96.size a ≤ (i a).val ∧ (i a).val < win0_4.index t a * S5000x96.size a + S5000x96.size a := by
  show i ∈ ((View.whole main_v1_0).slice (win0_4.rect t)).set ↔ _
  rw [View.set_slice_whole, Rect.mem_set_unit]
  exact Iff.rfl

/-- The ten blocks of window 4 cover its array: row `r` is in the block of point `r / 5000`. -/
theorem cover4 (i : S50000x96.Idx) :
    ∃ t : Fin cfg0.N, (cfg0.win 4).flush t = true ∧ i ∈ ((cfg0.win 4).blk t).view.set := by
  have hi0 : (i 0).val < 50000 := idx2_lt0 i
  have hi1 : (i 1).val < 96 := idx2_lt1 i
  have hN : cfg0.N = 10 := N_0
  have ht : (i 0).val / 5000 < cfg0.N := by omega
  refine ⟨⟨(i 0).val / 5000, ht⟩, flush0_4 _, ?_⟩
  rw [mem_blk4]
  have e0 : win0_4.index ⟨(i 0).val / 5000, ht⟩ 0 = (i 0).val / 5000 := (idx4 ⟨(i 0).val / 5000, ht⟩).1
  have e1 : win0_4.index ⟨(i 0).val / 5000, ht⟩ 1 = 0 := (idx4 ⟨(i 0).val / 5000, ht⟩).2
  intro a
  match a with
  | ⟨0, _⟩ => show win0_4.index ⟨(i 0).val / 5000, ht⟩ 0 * 5000 ≤ (i 0).val ∧ (i 0).val < win0_4.index ⟨(i 0).val / 5000, ht⟩ 0 * 5000 + 5000; omega
  | ⟨1, _⟩ => show win0_4.index ⟨(i 0).val / 5000, ht⟩ 1 * 96 ≤ (i 1).val ∧ (i 1).val < win0_4.index ⟨(i 0).val / 5000, ht⟩ 1 * 96 + 96; omega

/-- Entry `y` of output window 5's block at point `t` sits at row `5000 t + y 0`, column `y 1` of its array. -/
theorem emb5 (t : Fin cfg0.N) (y : S5000x96.Idx) :
    ((((cfg0.win 5).blk t).view.emb y) 0).val = 5000 * t.val + (y 0).val
    ∧ ((((cfg0.win 5).blk t).view.emb y) 1).val = (y 1).val := by
  have e0 : win0_5.index t 0 = t.val := (idx5 t).1
  have e1 : win0_5.index t 1 = 0 := (idx5 t).2
  constructor
  · show win0_5.index t 0 * 5000 + 1 * (y 0).val = _; omega
  · show win0_5.index t 1 * 96 + 1 * (y 1).val = _; omega

/-- An index of the array is in point `t`'s block of window 5 iff each coordinate is in the block's range. -/
theorem mem_blk5 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v1_1).slice (win0_5.rect t)).set ↔ _
  rw [View.set_slice_whole, Rect.mem_set_unit]
  exact Iff.rfl

/-- The ten blocks of window 5 cover its array: row `r` is in the block of point `r / 5000`. -/
theorem cover5 (i : S50000x96.Idx) :
    ∃ t : Fin cfg0.N, (cfg0.win 5).flush t = true ∧ i ∈ ((cfg0.win 5).blk t).view.set := by
  have hi0 : (i 0).val < 50000 := idx2_lt0 i
  have hi1 : (i 1).val < 96 := idx2_lt1 i
  have hN : cfg0.N = 10 := N_0
  have ht : (i 0).val / 5000 < cfg0.N := by omega
  refine ⟨⟨(i 0).val / 5000, ht⟩, flush0_5 _, ?_⟩
  rw [mem_blk5]
  have e0 : win0_5.index ⟨(i 0).val / 5000, ht⟩ 0 = (i 0).val / 5000 := (idx5 ⟨(i 0).val / 5000, ht⟩).1
  have e1 : win0_5.index ⟨(i 0).val / 5000, ht⟩ 1 = 0 := (idx5 ⟨(i 0).val / 5000, ht⟩).2
  intro a
  match a with
  | ⟨0, _⟩ => show win0_5.index ⟨(i 0).val / 5000, ht⟩ 0 * 5000 ≤ (i 0).val ∧ (i 0).val < win0_5.index ⟨(i 0).val / 5000, ht⟩ 0 * 5000 + 5000; omega
  | ⟨1, _⟩ => show win0_5.index ⟨(i 0).val / 5000, ht⟩ 1 * 96 ≤ (i 1).val ∧ (i 1).val < win0_5.index ⟨(i 0).val / 5000, ht⟩ 1 * 96 + 96; omega

/-- The features' tile after the change of format the products read it through. -/
theorem tile0p (c : Dev nD) (t : Fin cfg0.N) : IsTile t.val (k0_pay1 (F := Ideal) (iblk0 V c 0 t)) (V c main_arg0) :=
  tile0 V c t

/-- What point `t` writes back through window 4 is block `t` of the whole product. -/
theorem flushed4 (c : Dev nD) (t : Fin cfg0.N) :
    (dat0 V c).flushed 4 t = ((cfg0.win 4).blk t).view.read (Elt Ideal) (Cert.Gcn.prod (V c main_arg0) (V c main_arg3)) := by
  show (cfg0.win 4).cut (grid0.coords t) ((dat0 V c).after 4 t) = _
  rw [after0_4]
  unfold out0_4
  rw [View.canon_unit_zero hz]
  simp only [View.ld_unit_zero (S := S5000x96) hz, View.ld_unit_zero (S := S96x96) hz]
  funext y
  show k0_pay2 (F := Ideal) (iblk0 V c 0 t) (iblk0 V c 1 t) y
    = Cert.Gcn.prod (V c main_arg0) (V c main_arg3) (((cfg0.win 4).blk t).view.emb y)
  exact mm_tile (k0_pay1 (F := Ideal) (iblk0 V c 0 t)) (truncf .bf16 (iblk0 V c 1 t) bitsLt_bf16_f32) (V c main_arg0) (V c main_arg3) t.val
    (tile0p V c t) (whole1 V c t) y (((cfg0.win 4).blk t).view.emb y) (emb4 t y).1 (emb4 t y).2

/-- After the launch the first result array is the whole product. -/
theorem final4 (c : Dev nD) : (dat0 V c).arrAt 4 cfg0.N = Cert.Gcn.prod (V c main_arg0) (V c main_arg3) :=
  (dat0 V c).arrAt_eq_of_cover 4 _ (fun t _ => flushed4 V c t) cover4

/-- What point `t` writes back through window 5 is block `t` of the whole gate. -/
theorem flushed5 (c : Dev nD) (t : Fin cfg0.N) :
    (dat0 V c).flushed 5 t = ((cfg0.win 5).blk t).view.read (Elt Ideal) (Cert.Gcn.gateR (V c main_arg0) (V c main_arg7) (V c main_v0)) := by
  show (cfg0.win 5).cut (grid0.coords t) ((dat0 V c).after 5 t) = _
  rw [after0_5]
  unfold out0_5
  rw [View.canon_unit_zero hz]
  simp only [View.ld_unit_zero (S := S5000x96) hz, View.ld_unit_zero (S := S96x96) hz, View.ld_unit_zero (S := S1x96) hz]
  funext y
  show k0_pay3 (F := Ideal) (iblk0 V c 0 t) (iblk0 V c 2 t) (iblk0 V c 3 t) y
    = Cert.Gcn.gateR (V c main_arg0) (V c main_arg7) (V c main_v0) (((cfg0.win 5).blk t).view.emb y)
  exact gate_tile
    (matmul dot_S5000x96_S96x96_S5000x96_1_0_0_1_n_n none (k0_pay1 (F := Ideal) (iblk0 V c 0 t)) (truncf .bf16 (iblk0 V c 2 t) bitsLt_bf16_f32) (constant (F := Ideal) S5000x96 .f32 0x00000000#32))
    (iblk0 V c 3 t) (V c main_arg0) (V c main_arg7) (V c main_v0) shapeCasts_S1x96_S1x96 broadcasts_S1x96_S5000x96 y (((cfg0.win 5).blk t).view.emb y)
    (mm_tile (k0_pay1 (F := Ideal) (iblk0 V c 0 t)) (truncf .bf16 (iblk0 V c 2 t) bitsLt_bf16_f32) (V c main_arg0) (V c main_arg7) t.val
      (tile0p V c t) (whole2 V c t) y (((cfg0.win 5).blk t).view.emb y) (emb5 t y).1 (emb5 t y).2)
    (whole3 V c t) (emb5 t y).2

/-- After the launch the second result array is the whole gate. -/
theorem final5 (c : Dev nD) : (dat0 V c).arrAt 5 cfg0.N = Cert.Gcn.gateR (V c main_arg0) (V c main_arg7) (V c main_v0) :=
  (dat0 V c).arrAt_eq_of_cover 5 _ (fun t _ => flushed5 V c t) cover5

end Cert.KernelIdeal.Reg0

end
-- ==== Proof.Reg1.lean ====
/-
  Launch 1 of the kernel (the gated residual with the rectifier), as a whole array.

  The launch walks ten tiles of 5000 rows. At tile `t` it reads rows `5000 t …` of the features, of the gate and of the
  aggregated messages and the whole bias row, and writes `max ((1 - g) · x + g · (a + b), 0)` into rows `5000 t …` of
  the result. The arithmetic is entry by entry, so the tile's result is the whole array's function read in the tile's
  rows, and the ten tiles cover the 50000 rows.
-/
import proofs.«121213_j7988639171255_1_alg».proof.Proof.Gen.KernelIdeal.Frame
import proofs.«121213_j7988639171255_1_alg».proof.Proof.Block
import Idealize.ShloMosaic.Lib.Pipeline.Value
import Idealize.ShloMosaic.Lib.ValueIdx

set_option maxRecDepth 16384

noncomputable section

namespace Cert.KernelIdeal.Reg1

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem idx0 : ∀ t : Fin cfg1.N, win1_0.index t 0 = t.val ∧ win1_0.index t 1 = 0 :=
  (by decide +kernel : ∀ t : Fin grid1.N, _)

theorem idx1 : ∀ t : Fin cfg1.N, win1_1.index t 0 = t.val ∧ win1_1.index t 1 = 0 :=
  (by decide +kernel : ∀ t : Fin grid1.N, _)

theorem idx2 : ∀ t : Fin cfg1.N, win1_2.index t 0 = t.val ∧ win1_2.index t 1 = 0 :=
  (by decide +kernel : ∀ t : Fin grid1.N, _)

theorem idx3 : ∀ t : Fin cfg1.N, win1_3.index t 0 = 0 ∧ win1_3.index t 1 = 0 :=
  (by decide +kernel : ∀ t : Fin grid1.N, _)

theorem idx4 : ∀ t : Fin cfg1.N, win1_4.index t 0 = t.val ∧ win1_4.index t 1 = 0 :=
  (by decide +kernel : ∀ t : Fin grid1.N, _)

/-- Window 0's block at point `t` is the tile of rows `5000 t …` of its array. -/
theorem tile0 (c : Dev nD) (t : Fin cfg1.N) : IsTile t.val (iblk1 V c 0 t) (V c main_arg0) := by
  intro y i h0 h1
  have e0 : win1_0.index t 0 = t.val := (idx0 t).1
  have e1 : win1_0.index t 1 = 0 := (idx0 t).2
  unfold iblk1
  rw [View.read_apply]
  show V c main_arg0 (((cfg1.win 0).blk t).view.emb y) = V c main_arg0 i
  refine congrArg _ ?_
  funext a; apply Fin.ext
  match a with
  | ⟨0, _⟩ => show win1_0.index t 0 * 5000 + 1 * (y 0).val = (i 0).val; omega
  | ⟨1, _⟩ => show win1_0.index t 1 * 96 + 1 * (y 1).val = (i 1).val; omega

/-- Window 1's block at point `t` is the tile of rows `5000 t …` of its array. -/
theorem tile1 (c : Dev nD) (t : Fin cfg1.N) : IsTile t.val (iblk1 V c 1 t) (V c main_v1_1) := by
  intro y i h0 h1
  have e0 : win1_1.index t 0 = t.val := (idx1 t).1
  have e1 : win1_1.index t 1 = 0 := (idx1 t).2
  unfold iblk1
  rw [View.read_apply]
  show V c main_v1_1 (((cfg1.win 1).blk t).view.emb y) = V c main_v1_1 i
  refine congrArg _ ?_
  funext a; apply Fin.ext
  match a with
  | ⟨0, _⟩ => show win1_1.index t 0 * 5000 + 1 * (y 0).val = (i 0).val; omega
  | ⟨1, _⟩ => show win1_1.index t 1 * 96 + 1 * (y 1).val = (i 1).val; omega

/-- Window 2's block at point `t` is the tile of rows `5000 t …` of its array. -/
theorem tile2 (c : Dev nD) (t : Fin cfg1.N) : IsTile t.val (iblk1 V c 2 t) (V c main_v49) := by
  intro y i h0 h1
  have e0 : win1_2.index t 0 = t.val := (idx2 t).1
  have e1 : win1_2.index t 1 = 0 := (idx2 t).2
  unfold iblk1
  rw [View.read_apply]
  show V c main_v49 (((cfg1.win 2).blk t).view.emb y) = V c main_v49 i
  refine congrArg _ ?_
  funext a; apply Fin.ext
  match a with
  | ⟨0, _⟩ => show win1_2.index t 0 * 5000 + 1 * (y 0).val = (i 0).val; omega
  | ⟨1, _⟩ => show win1_2.index t 1 * 96 + 1 * (y 1).val = (i 1).val; omega

/-- Window 3's block at every point is its whole array. -/
theorem whole3 (c : Dev nD) (t : Fin cfg1.N) (q : S1x96.Idx) : iblk1 V c 3 t q = V c main_v50 q := by
  have e0 : win1_3.index t 0 = 0 := (idx3 t).1
  have e1 : win1_3.index t 1 = 0 := (idx3 t).2
  unfold iblk1
  rw [View.read_apply]
  show V c main_v50 (((cfg1.win 3).blk t).view.emb q) = V c main_v50 q
  refine congrArg _ ?_
  funext a; apply Fin.ext
  match a with
  | ⟨0, _⟩ => show win1_3.index t 0 * 1 + 1 * (q 0).val = (q 0).val; omega
  | ⟨1, _⟩ => show win1_3.index t 1 * 96 + 1 * (q 1).val = (q 1).val; omega

/-- Entry `y` of output window 4's block at point `t` sits at row `5000 t + y 0`, column `y 1` of its array. -/
theorem emb4 (t : Fin cfg1.N) (y : S5000x96.Idx) :
    ((((cfg1.win 4).blk t).view.emb y) 0).val = 5000 * t.val + (y 0).val
    ∧ ((((cfg1.win 4).blk t).view.emb y) 1).val = (y 1).val := by
  have e0 : win1_4.index t 0 = t.val := (idx4 t).1
  have e1 : win1_4.index t 1 = 0 := (idx4 t).2
  constructor
  · show win1_4.index t 0 * 5000 + 1 * (y 0).val = _; omega
  · show win1_4.index t 1 * 96 + 1 * (y 1).val = _; omega

/-- An index of the array is in point `t`'s block of window 4 iff each coordinate is in the block's range. -/
theorem mem_blk4 (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v51).slice (win1_4.rect t)).set ↔ _
  rw [View.set_slice_whole, Rect.mem_set_unit]
  exact Iff.rfl

/-- The ten blocks of window 4 cover its array: row `r` is in the block of point `r / 5000`. -/
theorem cover4 (i : S50000x96.Idx) :
    ∃ t : Fin cfg1.N, (cfg1.win 4).flush t = true ∧ i ∈ ((cfg1.win 4).blk t).view.set := by
  have hi0 : (i 0).val < 50000 := idx2_lt0 i
  have hi1 : (i 1).val < 96 := idx2_lt1 i
  have hN : cfg1.N = 10 := N_1
  have ht : (i 0).val / 5000 < cfg1.N := by omega
  refine ⟨⟨(i 0).val / 5000, ht⟩, flush1_4 _, ?_⟩
  rw [mem_blk4]
  have e0 : win1_4.index ⟨(i 0).val / 5000, ht⟩ 0 = (i 0).val / 5000 := (idx4 ⟨(i 0).val / 5000, ht⟩).1
  have e1 : win1_4.index ⟨(i 0).val / 5000, ht⟩ 1 = 0 := (idx4 ⟨(i 0).val / 5000, ht⟩).2
  intro a
  match a with
  | ⟨0, _⟩ => show win1_4.index ⟨(i 0).val / 5000, ht⟩ 0 * 5000 ≤ (i 0).val ∧ (i 0).val < win1_4.index ⟨(i 0).val / 5000, ht⟩ 0 * 5000 + 5000; omega
  | ⟨1, _⟩ => show win1_4.index ⟨(i 0).val / 5000, ht⟩ 1 * 96 ≤ (i 1).val ∧ (i 1).val < win1_4.index ⟨(i 0).val / 5000, ht⟩ 1 * 96 + 96; omega

/-- What point `t` writes back is block `t` of the whole gated residual. -/
theorem flushed4 (c : Dev nD) (t : Fin cfg1.N) :
    (dat1 V c).flushed 4 t = ((cfg1.win 4).blk t).view.read (Elt Ideal)
      (Cert.Gcn.mixR (V c main_arg0) (V c main_v1_1) (V c main_v49) (V c main_v50)) := by
  show (cfg1.win 4).cut (grid1.coords t) ((dat1 V c).after 4 t) = _
  rw [after1_4]
  unfold out1_4
  rw [View.canon_unit_zero hz]
  simp only [View.ld_unit_zero (S := S5000x96) hz, View.ld_unit_zero (S := S1x96) hz]
  funext y
  show k1_pay1 (F := Ideal) (iblk1 V c 0 t) (iblk1 V c 1 t) (iblk1 V c 2 t) (iblk1 V c 3 t) y
    = Cert.Gcn.mixR (V c main_arg0) (V c main_v1_1) (V c main_v49) (V c main_v50) (((cfg1.win 4).blk t).view.emb y)
  exact mix_tile (iblk1 V c 0 t)
    (shapeCast S5000x96 (iblk1 V c 1 t) shapeCasts_S5000x96_S5000x96)
    (shapeCast S5000x96 (iblk1 V c 2 t) shapeCasts_S5000x96_S5000x96)
    (iblk1 V c 3 t) (V c main_arg0) (V c main_v1_1) (V c main_v49) (V c main_v50) shapeCasts_S1x96_S1x96 broadcasts_S1x96_S5000x96
    y (((cfg1.win 4).blk t).view.emb y)
    ((tile0 V c t) y _ (emb4 t y).1 (emb4 t y).2)
    (((tile1 V c t).cast _) y _ (emb4 t y).1 (emb4 t y).2)
    (((tile2 V c t).cast _) y _ (emb4 t y).1 (emb4 t y).2)
    (whole3 V c t) (emb4 t y).2

/-- After the launch the result array is the whole gated residual. -/
theorem final4 (c : Dev nD) : (dat1 V c).arrAt 4 cfg1.N
    = Cert.Gcn.mixR (V c main_arg0) (V c main_v1_1) (V c main_v49) (V c main_v50) :=
  (dat1 V c).arrAt_eq_of_cover 4 _ (fun t _ => flushed4 V c t) cover4

end Cert.KernelIdeal.Reg1

end
-- ==== Proof.Reg2.lean ====
/-
  Launch 2 of the kernel (the two matrix products and the gate), as whole arrays.

  The launch walks ten tiles of 5000 rows. At tile `t` it reads rows `5000 t …` of the features and the whole of the
  two 96 × 96 matrices and of the bias row, and writes the tile's product with the first matrix into rows `5000 t …` of
  one result and the tile's gate into the same rows of the other. The ten tiles cover the 50000 rows, so after the
  launch the first result is the whole product and the second the whole gate.
-/
import proofs.«121213_j7988639171255_1_alg».proof.Proof.Gen.KernelIdeal.Frame
import proofs.«121213_j7988639171255_1_alg».proof.Proof.Block
import Idealize.ShloMosaic.Lib.Pipeline.Value
import Idealize.ShloMosaic.Lib.ValueIdx

set_option maxRecDepth 16384

noncomputable section

namespace Cert.KernelIdeal.Reg2

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem idx0 : ∀ t : Fin cfg2.N, win2_0.index t 0 = t.val ∧ win2_0.index t 1 = 0 :=
  (by decide +kernel : ∀ t : Fin grid2.N, _)

theorem idx1 : ∀ t : Fin cfg2.N, win2_1.index t 0 = 0 ∧ win2_1.index t 1 = 0 :=
  (by decide +kernel : ∀ t : Fin grid2.N, _)

theorem idx2 : ∀ t : Fin cfg2.N, win2_2.index t 0 = 0 ∧ win2_2.index t 1 = 0 :=
  (by decide +kernel : ∀ t : Fin grid2.N, _)

theorem idx3 : ∀ t : Fin cfg2.N, win2_3.index t 0 = 0 ∧ win2_3.index t 1 = 0 :=
  (by decide +kernel : ∀ t : Fin grid2.N, _)

theorem idx4 : ∀ t : Fin cfg2.N, win2_4.index t 0 = t.val ∧ win2_4.index t 1 = 0 :=
  (by decide +kernel : ∀ t : Fin grid2.N, _)

theorem idx5 : ∀ t : Fin cfg2.N, win2_5.index t 0 = t.val ∧ win2_5.index t 1 = 0 :=
  (by decide +kernel : ∀ t : Fin grid2.N, _)

/-- Window 0's block at point `t` is the tile of rows `5000 t …` of its array. -/
theorem tile0 (c : Dev nD) (t : Fin cfg2.N) : IsTile t.val (iblk2 V c 0 t) (V c main_v51) := by
  intro y i h0 h1
  have e0 : win2_0.index t 0 = t.val := (idx0 t).1
  have e1 : win2_0.index t 1 = 0 := (idx0 t).2
  unfold iblk2
  rw [View.read_apply]
  show V c main_v51 (((cfg2.win 0).blk t).view.emb y) = V c main_v51 i
  refine congrArg _ ?_
  funext a; apply Fin.ext
  match a with
  | ⟨0, _⟩ => show win2_0.index t 0 * 5000 + 1 * (y 0).val = (i 0).val; omega
  | ⟨1, _⟩ => show win2_0.index t 1 * 96 + 1 * (y 1).val = (i 1).val; omega

/-- Window 1's block at every point is its whole array. -/
theorem whole1 (c : Dev nD) (t : Fin cfg2.N) (q : S96x96.Idx) : iblk2 V c 1 t q = V c main_arg5 q := by
  have e0 : win2_1.index t 0 = 0 := (idx1 t).1
  have e1 : win2_1.index t 1 = 0 := (idx1 t).2
  unfold iblk2
  rw [View.read_apply]
  show V c main_arg5 (((cfg2.win 1).blk t).view.emb q) = V c main_arg5 q
  refine congrArg _ ?_
  funext a; apply Fin.ext
  match a with
  | ⟨0, _⟩ => show win2_1.index t 0 * 96 + 1 * (q 0).val = (q 0).val; omega
  | ⟨1, _⟩ => show win2_1.index t 1 * 96 + 1 * (q 1).val = (q 1).val; omega

/-- Window 2's block at every point is its whole array. -/
theorem whole2 (c : Dev nD) (t : Fin cfg2.N) (q : S96x96.Idx) : iblk2 V c 2 t q = V c main_arg9 q := by
  have e0 : win2_2.index t 0 = 0 := (idx2 t).1
  have e1 : win2_2.index t 1 = 0 := (idx2 t).2
  unfold iblk2
  rw [View.read_apply]
  show V c main_arg9 (((cfg2.win 2).blk t).view.emb q) = V c main_arg9 q
  refine congrArg _ ?_
  funext a; apply Fin.ext
  match a with
  | ⟨0, _⟩ => show win2_2.index t 0 * 96 + 1 * (q 0).val = (q 0).val; omega
  | ⟨1, _⟩ => show win2_2.index t 1 * 96 + 1 * (q 1).val = (q 1).val; omega

/-- Window 3's block at every point is its whole array. -/
theorem whole3 (c : Dev nD) (t : Fin cfg2.N) (q : S1x96.Idx) : iblk2 V c 3 t q = V c main_v52 q := by
  have e0 : win2_3.index t 0 = 0 := (idx3 t).1
  have e1 : win2_3.index t 1 = 0 := (idx3 t).2
  unfold iblk2
  rw [View.read_apply]
  show V c main_v52 (((cfg2.win 3).blk t).view.emb q) = V c main_v52 q
  refine congrArg _ ?_
  funext a; apply Fin.ext
  match a with
  | ⟨0, _⟩ => show win2_3.index t 0 * 1 + 1 * (q 0).val = (q 0).val; omega
  | ⟨1, _⟩ => show win2_3.index t 1 * 96 + 1 * (q 1).val = (q 1).val; omega

/-- Entry `y` of output window 4's block at point `t` sits at row `5000 t + y 0`, column `y 1` of its array. -/
theorem emb4 (t : Fin cfg2.N) (y : S5000x96.Idx) :
    ((((cfg2.win 4).blk t).view.emb y) 0).val = 5000 * t.val + (y 0).val
    ∧ ((((cfg2.win 4).blk t).view.emb y) 1).val = (y 1).val := by
  have e0 : win2_4.index t 0 = t.val := (idx4 t).1
  have e1 : win2_4.index t 1 = 0 := (idx4 t).2
  constructor
  · show win2_4.index t 0 * 5000 + 1 * (y 0).val = _; omega
  · show win2_4.index t 1 * 96 + 1 * (y 1).val = _; omega

/-- An index of the array is in point `t`'s block of window 4 iff each coordinate is in the block's range. -/
theorem mem_blk4 (t : Fin cfg2.N) (i : S50000x96.Idx) :
    i ∈ ((cfg2.win 4).blk t).view.set ↔ ∀ a : Fin 2, win2_4.index t a * S5000x96.size a ≤ (i a).val ∧ (i a).val < win2_4.index t a * S5000x96.size a + S5000x96.size a := by
  show i ∈ ((View.whole main_v53_0).slice (win2_4.rect t)).set ↔ _
  rw [View.set_slice_whole, Rect.mem_set_unit]
  exact Iff.rfl

/-- The ten blocks of window 4 cover its array: row `r` is in the block of point `r / 5000`. -/
theorem cover4 (i : S50000x96.Idx) :
    ∃ t : Fin cfg2.N, (cfg2.win 4).flush t = true ∧ i ∈ ((cfg2.win 4).blk t).view.set := by
  have hi0 : (i 0).val < 50000 := idx2_lt0 i
  have hi1 : (i 1).val < 96 := idx2_lt1 i
  have hN : cfg2.N = 10 := N_2
  have ht : (i 0).val / 5000 < cfg2.N := by omega
  refine ⟨⟨(i 0).val / 5000, ht⟩, flush2_4 _, ?_⟩
  rw [mem_blk4]
  have e0 : win2_4.index ⟨(i 0).val / 5000, ht⟩ 0 = (i 0).val / 5000 := (idx4 ⟨(i 0).val / 5000, ht⟩).1
  have e1 : win2_4.index ⟨(i 0).val / 5000, ht⟩ 1 = 0 := (idx4 ⟨(i 0).val / 5000, ht⟩).2
  intro a
  match a with
  | ⟨0, _⟩ => show win2_4.index ⟨(i 0).val / 5000, ht⟩ 0 * 5000 ≤ (i 0).val ∧ (i 0).val < win2_4.index ⟨(i 0).val / 5000, ht⟩ 0 * 5000 + 5000; omega
  | ⟨1, _⟩ => show win2_4.index ⟨(i 0).val / 5000, ht⟩ 1 * 96 ≤ (i 1).val ∧ (i 1).val < win2_4.index ⟨(i 0).val / 5000, ht⟩ 1 * 96 + 96; omega

/-- Entry `y` of output window 5's block at point `t` sits at row `5000 t + y 0`, column `y 1` of its array. -/
theorem emb5 (t : Fin cfg2.N) (y : S5000x96.Idx) :
    ((((cfg2.win 5).blk t).view.emb y) 0).val = 5000 * t.val + (y 0).val
    ∧ ((((cfg2.win 5).blk t).view.emb y) 1).val = (y 1).val := by
  have e0 : win2_5.index t 0 = t.val := (idx5 t).1
  have e1 : win2_5.index t 1 = 0 := (idx5 t).2
  constructor
  · show win2_5.index t 0 * 5000 + 1 * (y 0).val = _; omega
  · show win2_5.index t 1 * 96 + 1 * (y 1).val = _; omega

/-- An index of the array is in point `t`'s block of window 5 iff each coordinate is in the block's range. -/
theorem mem_blk5 (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v53_1).slice (win2_5.rect t)).set ↔ _
  rw [View.set_slice_whole, Rect.mem_set_unit]
  exact Iff.rfl

/-- The ten blocks of window 5 cover its array: row `r` is in the block of point `r / 5000`. -/
theorem cover5 (i : S50000x96.Idx) :
    ∃ t : Fin cfg2.N, (cfg2.win 5).flush t = true ∧ i ∈ ((cfg2.win 5).blk t).view.set := by
  have hi0 : (i 0).val < 50000 := idx2_lt0 i
  have hi1 : (i 1).val < 96 := idx2_lt1 i
  have hN : cfg2.N = 10 := N_2
  have ht : (i 0).val / 5000 < cfg2.N := by omega
  refine ⟨⟨(i 0).val / 5000, ht⟩, flush2_5 _, ?_⟩
  rw [mem_blk5]
  have e0 : win2_5.index ⟨(i 0).val / 5000, ht⟩ 0 = (i 0).val / 5000 := (idx5 ⟨(i 0).val / 5000, ht⟩).1
  have e1 : win2_5.index ⟨(i 0).val / 5000, ht⟩ 1 = 0 := (idx5 ⟨(i 0).val / 5000, ht⟩).2
  intro a
  match a with
  | ⟨0, _⟩ => show win2_5.index ⟨(i 0).val / 5000, ht⟩ 0 * 5000 ≤ (i 0).val ∧ (i 0).val < win2_5.index ⟨(i 0).val / 5000, ht⟩ 0 * 5000 + 5000; omega
  | ⟨1, _⟩ => show win2_5.index ⟨(i 0).val / 5000, ht⟩ 1 * 96 ≤ (i 1).val ∧ (i 1).val < win2_5.index ⟨(i 0).val / 5000, ht⟩ 1 * 96 + 96; omega

/-- The features' tile after the change of format the products read it through. -/
theorem tile0p (c : Dev nD) (t : Fin cfg2.N) : IsTile t.val (k2_pay1 (F := Ideal) (iblk2 V c 0 t)) (V c main_v51) :=
  (tile0 V c t).cast _

/-- What point `t` writes back through window 4 is block `t` of the whole product. -/
theorem flushed4 (c : Dev nD) (t : Fin cfg2.N) :
    (dat2 V c).flushed 4 t = ((cfg2.win 4).blk t).view.read (Elt Ideal) (Cert.Gcn.prod (V c main_v51) (V c main_arg5)) := by
  show (cfg2.win 4).cut (grid2.coords t) ((dat2 V c).after 4 t) = _
  rw [after2_4]
  unfold out2_4
  rw [View.canon_unit_zero hz]
  simp only [View.ld_unit_zero (S := S5000x96) hz, View.ld_unit_zero (S := S96x96) hz]
  funext y
  show k2_pay2 (F := Ideal) (iblk2 V c 0 t) (iblk2 V c 1 t) y
    = Cert.Gcn.prod (V c main_v51) (V c main_arg5) (((cfg2.win 4).blk t).view.emb y)
  exact mm_tile (k2_pay1 (F := Ideal) (iblk2 V c 0 t)) (truncf .bf16 (iblk2 V c 1 t) bitsLt_bf16_f32) (V c main_v51) (V c main_arg5) t.val
    (tile0p V c t) (whole1 V c t) y (((cfg2.win 4).blk t).view.emb y) (emb4 t y).1 (emb4 t y).2

/-- After the launch the first result array is the whole product. -/
theorem final4 (c : Dev nD) : (dat2 V c).arrAt 4 cfg2.N = Cert.Gcn.prod (V c main_v51) (V c main_arg5) :=
  (dat2 V c).arrAt_eq_of_cover 4 _ (fun t _ => flushed4 V c t) cover4

/-- What point `t` writes back through window 5 is block `t` of the whole gate. -/
theorem flushed5 (c : Dev nD) (t : Fin cfg2.N) :
    (dat2 V c).flushed 5 t = ((cfg2.win 5).blk t).view.read (Elt Ideal) (Cert.Gcn.gateR (V c main_v51) (V c main_arg9) (V c main_v52)) := by
  show (cfg2.win 5).cut (grid2.coords t) ((dat2 V c).after 5 t) = _
  rw [after2_5]
  unfold out2_5
  rw [View.canon_unit_zero hz]
  simp only [View.ld_unit_zero (S := S5000x96) hz, View.ld_unit_zero (S := S96x96) hz, View.ld_unit_zero (S := S1x96) hz]
  funext y
  show k2_pay3 (F := Ideal) (iblk2 V c 0 t) (iblk2 V c 2 t) (iblk2 V c 3 t) y
    = Cert.Gcn.gateR (V c main_v51) (V c main_arg9) (V c main_v52) (((cfg2.win 5).blk t).view.emb y)
  exact gate_tile
    (matmul dot_S5000x96_S96x96_S5000x96_1_0_0_1_n_n none (k2_pay1 (F := Ideal) (iblk2 V c 0 t)) (truncf .bf16 (iblk2 V c 2 t) bitsLt_bf16_f32) (constant (F := Ideal) S5000x96 .f32 0x00000000#32))
    (iblk2 V c 3 t) (V c main_v51) (V c main_arg9) (V c main_v52) shapeCasts_S1x96_S1x96 broadcasts_S1x96_S5000x96 y (((cfg2.win 5).blk t).view.emb y)
    (mm_tile (k2_pay1 (F := Ideal) (iblk2 V c 0 t)) (truncf .bf16 (iblk2 V c 2 t) bitsLt_bf16_f32) (V c main_v51) (V c main_arg9) t.val
      (tile0p V c t) (whole2 V c t) y (((cfg2.win 5).blk t).view.emb y) (emb5 t y).1 (emb5 t y).2)
    (whole3 V c t) (emb5 t y).2

/-- After the launch the second result array is the whole gate. -/
theorem final5 (c : Dev nD) : (dat2 V c).arrAt 5 cfg2.N = Cert.Gcn.gateR (V c main_v51) (V c main_arg9) (V c main_v52) :=
  (dat2 V c).arrAt_eq_of_cover 5 _ (fun t _ => flushed5 V c t) cover5

end Cert.KernelIdeal.Reg2

end
-- ==== Proof.Reg3.lean ====
/-
  Launch 3 of the kernel (the gated residual with the rectifier), as a whole array.

  The launch walks ten tiles of 5000 rows. At tile `t` it reads rows `5000 t …` of the features, of the gate and of the
  aggregated messages and the whole bias row, and writes `max ((1 - g) · x + g · (a + b), 0)` into rows `5000 t …` of
  the result. The arithmetic is entry by entry, so the tile's result is the whole array's function read in the tile's
  rows, and the ten tiles cover the 50000 rows.
-/
import proofs.«121213_j7988639171255_1_alg».proof.Proof.Gen.KernelIdeal.Frame
import proofs.«121213_j7988639171255_1_alg».proof.Proof.Block
import Idealize.ShloMosaic.Lib.Pipeline.Value
import Idealize.ShloMosaic.Lib.ValueIdx

set_option maxRecDepth 16384

noncomputable section

namespace Cert.KernelIdeal.Reg3

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

theorem idx0 : ∀ t : Fin cfg3.N, win3_0.index t 0 = t.val ∧ win3_0.index t 1 = 0 :=
  (by decide +kernel : ∀ t : Fin grid3.N, _)

theorem idx1 : ∀ t : Fin cfg3.N, win3_1.index t 0 = t.val ∧ win3_1.index t 1 = 0 :=
  (by decide +kernel : ∀ t : Fin grid3.N, _)

theorem idx2 : ∀ t : Fin cfg3.N, win3_2.index t 0 = t.val ∧ win3_2.index t 1 = 0 :=
  (by decide +kernel : ∀ t : Fin grid3.N, _)

theorem idx3 : ∀ t : Fin cfg3.N, win3_3.index t 0 = 0 ∧ win3_3.index t 1 = 0 :=
  (by decide +kernel : ∀ t : Fin grid3.N, _)

theorem idx4 : ∀ t : Fin cfg3.N, win3_4.index t 0 = t.val ∧ win3_4.index t 1 = 0 :=
  (by decide +kernel : ∀ t : Fin grid3.N, _)

/-- Window 0's block at point `t` is the tile of rows `5000 t …` of its array. -/
theorem tile0 (c : Dev nD) (t : Fin cfg3.N) : IsTile t.val (iblk3 V c 0 t) (V c main_v51) := by
  intro y i h0 h1
  have e0 : win3_0.index t 0 = t.val := (idx0 t).1
  have e1 : win3_0.index t 1 = 0 := (idx0 t).2
  unfold iblk3
  rw [View.read_apply]
  show V c main_v51 (((cfg3.win 0).blk t).view.emb y) = V c main_v51 i
  refine congrArg _ ?_
  funext a; apply Fin.ext
  match a with
  | ⟨0, _⟩ => show win3_0.index t 0 * 5000 + 1 * (y 0).val = (i 0).val; omega
  | ⟨1, _⟩ => show win3_0.index t 1 * 96 + 1 * (y 1).val = (i 1).val; omega

/-- Window 1's block at point `t` is the tile of rows `5000 t …` of its array. -/
theorem tile1 (c : Dev nD) (t : Fin cfg3.N) : IsTile t.val (iblk3 V c 1 t) (V c main_v53_1) := by
  intro y i h0 h1
  have e0 : win3_1.index t 0 = t.val := (idx1 t).1
  have e1 : win3_1.index t 1 = 0 := (idx1 t).2
  unfold iblk3
  rw [View.read_apply]
  show V c main_v53_1 (((cfg3.win 1).blk t).view.emb y) = V c main_v53_1 i
  refine congrArg _ ?_
  funext a; apply Fin.ext
  match a with
  | ⟨0, _⟩ => show win3_1.index t 0 * 5000 + 1 * (y 0).val = (i 0).val; omega
  | ⟨1, _⟩ => show win3_1.index t 1 * 96 + 1 * (y 1).val = (i 1).val; omega

/-- Window 2's block at point `t` is the tile of rows `5000 t …` of its array. -/
theorem tile2 (c : Dev nD) (t : Fin cfg3.N) : IsTile t.val (iblk3 V c 2 t) (V c main_v101) := by
  intro y i h0 h1
  have e0 : win3_2.index t 0 = t.val := (idx2 t).1
  have e1 : win3_2.index t 1 = 0 := (idx2 t).2
  unfold iblk3
  rw [View.read_apply]
  show V c main_v101 (((cfg3.win 2).blk t).view.emb y) = V c main_v101 i
  refine congrArg _ ?_
  funext a; apply Fin.ext
  match a with
  | ⟨0, _⟩ => show win3_2.index t 0 * 5000 + 1 * (y 0).val = (i 0).val; omega
  | ⟨1, _⟩ => show win3_2.index t 1 * 96 + 1 * (y 1).val = (i 1).val; omega

/-- Window 3's block at every point is its whole array. -/
theorem whole3 (c : Dev nD) (t : Fin cfg3.N) (q : S1x96.Idx) : iblk3 V c 3 t q = V c main_v102 q := by
  have e0 : win3_3.index t 0 = 0 := (idx3 t).1
  have e1 : win3_3.index t 1 = 0 := (idx3 t).2
  unfold iblk3
  rw [View.read_apply]
  show V c main_v102 (((cfg3.win 3).blk t).view.emb q) = V c main_v102 q
  refine congrArg _ ?_
  funext a; apply Fin.ext
  match a with
  | ⟨0, _⟩ => show win3_3.index t 0 * 1 + 1 * (q 0).val = (q 0).val; omega
  | ⟨1, _⟩ => show win3_3.index t 1 * 96 + 1 * (q 1).val = (q 1).val; omega

/-- Entry `y` of output window 4's block at point `t` sits at row `5000 t + y 0`, column `y 1` of its array. -/
theorem emb4 (t : Fin cfg3.N) (y : S5000x96.Idx) :
    ((((cfg3.win 4).blk t).view.emb y) 0).val = 5000 * t.val + (y 0).val
    ∧ ((((cfg3.win 4).blk t).view.emb y) 1).val = (y 1).val := by
  have e0 : win3_4.index t 0 = t.val := (idx4 t).1
  have e1 : win3_4.index t 1 = 0 := (idx4 t).2
  constructor
  · show win3_4.index t 0 * 5000 + 1 * (y 0).val = _; omega
  · show win3_4.index t 1 * 96 + 1 * (y 1).val = _; omega

/-- An index of the array is in point `t`'s block of window 4 iff each coordinate is in the block's range. -/
theorem mem_blk4 (t : Fin cfg3.N) (i : S50000x96.Idx) :
    i ∈ ((cfg3.win 4).blk t).view.set ↔ ∀ a : Fin 2, win3_4.index t a * S5000x96.size a ≤ (i a).val ∧ (i a).val < win3_4.index t a * S5000x96.size a + S5000x96.size a := by
  show i ∈ ((View.whole main_v103).slice (win3_4.rect t)).set ↔ _
  rw [View.set_slice_whole, Rect.mem_set_unit]
  exact Iff.rfl

/-- The ten blocks of window 4 cover its array: row `r` is in the block of point `r / 5000`. -/
theorem cover4 (i : S50000x96.Idx) :
    ∃ t : Fin cfg3.N, (cfg3.win 4).flush t = true ∧ i ∈ ((cfg3.win 4).blk t).view.set := by
  have hi0 : (i 0).val < 50000 := idx2_lt0 i
  have hi1 : (i 1).val < 96 := idx2_lt1 i
  have hN : cfg3.N = 10 := N_3
  have ht : (i 0).val / 5000 < cfg3.N := by omega
  refine ⟨⟨(i 0).val / 5000, ht⟩, flush3_4 _, ?_⟩
  rw [mem_blk4]
  have e0 : win3_4.index ⟨(i 0).val / 5000, ht⟩ 0 = (i 0).val / 5000 := (idx4 ⟨(i 0).val / 5000, ht⟩).1
  have e1 : win3_4.index ⟨(i 0).val / 5000, ht⟩ 1 = 0 := (idx4 ⟨(i 0).val / 5000, ht⟩).2
  intro a
  match a with
  | ⟨0, _⟩ => show win3_4.index ⟨(i 0).val / 5000, ht⟩ 0 * 5000 ≤ (i 0).val ∧ (i 0).val < win3_4.index ⟨(i 0).val / 5000, ht⟩ 0 * 5000 + 5000; omega
  | ⟨1, _⟩ => show win3_4.index ⟨(i 0).val / 5000, ht⟩ 1 * 96 ≤ (i 1).val ∧ (i 1).val < win3_4.index ⟨(i 0).val / 5000, ht⟩ 1 * 96 + 96; omega

/-- What point `t` writes back is block `t` of the whole gated residual. -/
theorem flushed4 (c : Dev nD) (t : Fin cfg3.N) :
    (dat3 V c).flushed 4 t = ((cfg3.win 4).blk t).view.read (Elt Ideal)
      (Cert.Gcn.mixR (V c main_v51) (V c main_v53_1) (V c main_v101) (V c main_v102)) := by
  show (cfg3.win 4).cut (grid3.coords t) ((dat3 V c).after 4 t) = _
  rw [after3_4]
  unfold out3_4
  rw [View.canon_unit_zero hz]
  simp only [View.ld_unit_zero (S := S5000x96) hz, View.ld_unit_zero (S := S1x96) hz]
  funext y
  show k3_pay1 (F := Ideal) (iblk3 V c 0 t) (iblk3 V c 1 t) (iblk3 V c 2 t) (iblk3 V c 3 t) y
    = Cert.Gcn.mixR (V c main_v51) (V c main_v53_1) (V c main_v101) (V c main_v102) (((cfg3.win 4).blk t).view.emb y)
  exact mix_tile (shapeCast S5000x96 (iblk3 V c 0 t) shapeCasts_S5000x96_S5000x96)
    (shapeCast S5000x96 (iblk3 V c 1 t) shapeCasts_S5000x96_S5000x96)
    (shapeCast S5000x96 (iblk3 V c 2 t) shapeCasts_S5000x96_S5000x96)
    (iblk3 V c 3 t) (V c main_v51) (V c main_v53_1) (V c main_v101) (V c main_v102) shapeCasts_S1x96_S1x96 broadcasts_S1x96_S5000x96
    y (((cfg3.win 4).blk t).view.emb y)
    (((tile0 V c t).cast _) y _ (emb4 t y).1 (emb4 t y).2)
    (((tile1 V c t).cast _) y _ (emb4 t y).1 (emb4 t y).2)
    (((tile2 V c t).cast _) y _ (emb4 t y).1 (emb4 t y).2)
    (whole3 V c t) (emb4 t y).2

/-- After the launch the result array is the whole gated residual. -/
theorem final4 (c : Dev nD) : (dat3 V c).arrAt 4 cfg3.N
    = Cert.Gcn.mixR (V c main_v51) (V c main_v53_1) (V c main_v101) (V c main_v102) :=
  (dat3 V c).arrAt_eq_of_cover 4 _ (fun t _ => flushed4 V c t) cover4

end Cert.KernelIdeal.Reg3

end
-- ==== Proof.Host.lean ====
/-
  The host operations between the kernel's launches, read as functions of the buffers they start from.

  Four stretches of host operations surround the launches. The first and the third lay a bias vector out as a one-row
  matrix. The second and the fourth compute the edge aggregation of the product the launch before them left (reading
  the edge list and the edge weights) and lay another bias vector out as a row. No stretch writes an argument array
  or an array a launch produced. Each fact below is read off the stretch's operations, whatever the buffers held
  before it (`Wv`).
-/
import proofs.«121213_j7988639171255_1_alg».proof.Proof.Gen.KernelIdeal.Launch
import proofs.«121213_j7988639171255_1_alg».proof.Proof.Spec
import Idealize.ShloMosaic.Lib.StableHlo.Run

set_option maxRecDepth 8192

noncomputable section

namespace Cert.KernelIdeal.Host

open Cert.KernelIdeal Cert.KernelIdeal.Gen Idealize.ShloMosaic Idealize.ShloMosaic.StableHlo Idealize.ShloMosaic.TcCoe Idealize.SL.Sem

/-- Two pieces joined along an axis, the pieces as plain arguments (a concatenation takes them as a list of pairs of a
    shape and an array, inside which a rewriting pass does not look). -/
def pieces2 {α : Type} (t : Shape) (a : Fin t.rank) (s₁ s₂ : Shape) (x₁ : s₁.Idx → α) (x₂ : s₂.Idx → α)
    (h : Shape.Concatenates [s₁, s₂] t a) : t.Idx → α := concatenate t a [⟨s₁, x₁⟩, ⟨s₂, x₂⟩] h

theorem pieces2_eq {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = pieces2 t a s₁ s₂ x₁ x₂ h := rfl

/-- One rewriting pass over a literal list of host operations: each operation's result at its own buffer is its
    function of its operands' contents, at any other buffer what was there; a two-piece concatenation is opened on
    the way so that the pass reaches the pieces. -/
macro "host_eval" : tactic =>
  `(tactic| simp (disch := decide) only [Idealize.ShloMosaic.StableHlo.after_cons, Idealize.ShloMosaic.StableHlo.after_nil,
      Cert.KernelIdeal.Host.pieces2_eq,
      Idealize.ShloMosaic.StableHlo.nullary_result', Idealize.ShloMosaic.StableHlo.unary_result',
      Idealize.ShloMosaic.StableHlo.binary_result', Idealize.ShloMosaic.StableHlo.ternary_result',
      Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.reshape_result_ne'])

variable (Wv : Valuation τ sig (Elt Ideal))

/-! ## The stretch before the first launch -/

theorem keep0_main_arg0 : StableHlo.after (hostOps0 (F := Ideal)) Wv (Proc.devRef .tc main_arg0) = (Wv (Proc.devRef .tc main_arg0)) := by
  simp only [hostOps0]
  host_eval

theorem keep0_main_arg1 : StableHlo.after (hostOps0 (F := Ideal)) Wv (Proc.devRef .tc main_arg1) = (Wv (Proc.devRef .tc main_arg1)) := by
  simp only [hostOps0]
  host_eval

theorem keep0_main_arg2 : StableHlo.after (hostOps0 (F := Ideal)) Wv (Proc.devRef .tc main_arg2) = (Wv (Proc.devRef .tc main_arg2)) := by
  simp only [hostOps0]
  host_eval

theorem keep0_main_arg3 : StableHlo.after (hostOps0 (F := Ideal)) Wv (Proc.devRef .tc main_arg3) = (Wv (Proc.devRef .tc main_arg3)) := by
  simp only [hostOps0]
  host_eval

theorem keep0_main_arg4 : StableHlo.after (hostOps0 (F := Ideal)) Wv (Proc.devRef .tc main_arg4) = (Wv (Proc.devRef .tc main_arg4)) := by
  simp only [hostOps0]
  host_eval

theorem keep0_main_arg5 : StableHlo.after (hostOps0 (F := Ideal)) Wv (Proc.devRef .tc main_arg5) = (Wv (Proc.devRef .tc main_arg5)) := by
  simp only [hostOps0]
  host_eval

theorem keep0_main_arg6 : StableHlo.after (hostOps0 (F := Ideal)) Wv (Proc.devRef .tc main_arg6) = (Wv (Proc.devRef .tc main_arg6)) := by
  simp only [hostOps0]
  host_eval

theorem keep0_main_arg7 : StableHlo.after (hostOps0 (F := Ideal)) Wv (Proc.devRef .tc main_arg7) = (Wv (Proc.devRef .tc main_arg7)) := by
  simp only [hostOps0]
  host_eval

theorem keep0_main_arg9 : StableHlo.after (hostOps0 (F := Ideal)) Wv (Proc.devRef .tc main_arg9) = (Wv (Proc.devRef .tc main_arg9)) := by
  simp only [hostOps0]
  host_eval

theorem keep0_main_arg10 : StableHlo.after (hostOps0 (F := Ideal)) Wv (Proc.devRef .tc main_arg10) = (Wv (Proc.devRef .tc main_arg10)) := by
  simp only [hostOps0]
  host_eval

/-- The bias vector laid out as a one-row matrix. -/
theorem row0 : StableHlo.after (hostOps0 (F := Ideal)) Wv (Proc.devRef .tc main_v0) = shapeCast S1x96 (Wv (Proc.devRef .tc main_arg8)) shapeCasts_S96_S1x96 := by
  simp only [hostOps0]
  host_eval
  rfl

/-! ## The stretch between the first and the second launch -/

theorem keep1_main_arg0 : StableHlo.after hostOps1_4 (StableHlo.after hostOps1_3 (StableHlo.after hostOps1_2 (StableHlo.after hostOps1_1 (StableHlo.after (hostOps1 (F := Ideal)) Wv)))) (Proc.devRef .tc main_arg0) = (Wv (Proc.devRef .tc main_arg0)) := by
  simp only [hostOps1, hostOps1_1, hostOps1_2, hostOps1_3, hostOps1_4]
  host_eval

theorem keep1_main_arg1 : StableHlo.after hostOps1_4 (StableHlo.after hostOps1_3 (StableHlo.after hostOps1_2 (StableHlo.after hostOps1_1 (StableHlo.after (hostOps1 (F := Ideal)) Wv)))) (Proc.devRef .tc main_arg1) = (Wv (Proc.devRef .tc main_arg1)) := by
  simp only [hostOps1, hostOps1_1, hostOps1_2, hostOps1_3, hostOps1_4]
  host_eval

theorem keep1_main_arg2 : StableHlo.after hostOps1_4 (StableHlo.after hostOps1_3 (StableHlo.after hostOps1_2 (StableHlo.after hostOps1_1 (StableHlo.after (hostOps1 (F := Ideal)) Wv)))) (Proc.devRef .tc main_arg2) = (Wv (Proc.devRef .tc main_arg2)) := by
  simp only [hostOps1, hostOps1_1, hostOps1_2, hostOps1_3, hostOps1_4]
  host_eval

theorem keep1_main_arg5 : StableHlo.after hostOps1_4 (StableHlo.after hostOps1_3 (StableHlo.after hostOps1_2 (StableHlo.after hostOps1_1 (StableHlo.after (hostOps1 (F := Ideal)) Wv)))) (Proc.devRef .tc main_arg5) = (Wv (Proc.devRef .tc main_arg5)) := by
  simp only [hostOps1, hostOps1_1, hostOps1_2, hostOps1_3, hostOps1_4]
  host_eval

theorem keep1_main_arg6 : StableHlo.after hostOps1_4 (StableHlo.after hostOps1_3 (StableHlo.after hostOps1_2 (StableHlo.after hostOps1_1 (StableHlo.after (hostOps1 (F := Ideal)) Wv)))) (Proc.devRef .tc main_arg6) = (Wv (Proc.devRef .tc main_arg6)) := by
  simp only [hostOps1, hostOps1_1, hostOps1_2, hostOps1_3, hostOps1_4]
  host_eval

theorem keep1_main_arg9 : StableHlo.after hostOps1_4 (StableHlo.after hostOps1_3 (StableHlo.after hostOps1_2 (StableHlo.after hostOps1_1 (StableHlo.after (hostOps1 (F := Ideal)) Wv)))) (Proc.devRef .tc main_arg9) = (Wv (Proc.devRef .tc main_arg9)) := by
  simp only [hostOps1, hostOps1_1, hostOps1_2, hostOps1_3, hostOps1_4]
  host_eval

theorem keep1_main_arg10 : StableHlo.after hostOps1_4 (StableHlo.after hostOps1_3 (StableHlo.after hostOps1_2 (StableHlo.after hostOps1_1 (StableHlo.after (hostOps1 (F := Ideal)) Wv)))) (Proc.devRef .tc main_arg10) = (Wv (Proc.devRef .tc main_arg10)) := by
  simp only [hostOps1, hostOps1_1, hostOps1_2, hostOps1_3, hostOps1_4]
  host_eval

theorem keep1_main_v1_1 : StableHlo.after hostOps1_4 (StableHlo.after hostOps1_3 (StableHlo.after hostOps1_2 (StableHlo.after hostOps1_1 (StableHlo.after (hostOps1 (F := Ideal)) Wv)))) (Proc.devRef .tc main_v1_1) = (Wv (Proc.devRef .tc main_v1_1)) := by
  simp only [hostOps1, hostOps1_1, hostOps1_2, hostOps1_3, hostOps1_4]
  host_eval

/-- The bias vector laid out as a one-row matrix. -/
theorem row1 : StableHlo.after hostOps1_4 (StableHlo.after hostOps1_3 (StableHlo.after hostOps1_2 (StableHlo.after hostOps1_1 (StableHlo.after (hostOps1 (F := Ideal)) Wv)))) (Proc.devRef .tc main_v50) = shapeCast S1x96 (Wv (Proc.devRef .tc main_arg4)) shapeCasts_S96_S1x96 := by
  simp only [hostOps1, hostOps1_1, hostOps1_2, hostOps1_3, hostOps1_4]
  host_eval
  rfl

/-! ### The edge aggregation of stretch 1, one piece at a time

The stretch is five lists of operations. The first builds, from the edge list and the edge weights, the two ends of every
edge with the self-loops appended, the weights with ones appended, the nodes' degrees and the mask of the positive ones. The
second and the fourth are a select against a splatted constant; the third takes the inverse square root of the degrees made
safe. The fifth gathers, scales and scatter-adds. Each piece is read over whatever the buffers held before it. -/

theorem a1_row : StableHlo.after (hostOps1 (F := Ideal)) Wv (Proc.devRef .tc main_v5) = Cert.ReferenceIdeal.Read.val_main_v4 (F := Ideal) (Wv (Proc.devRef .tc main_arg1)) := by
  simp only [hostOps1]; host_eval; rfl
theorem a1_col : StableHlo.after (hostOps1 (F := Ideal)) Wv (Proc.devRef .tc main_v8) = Cert.ReferenceIdeal.Read.val_main_v7 (F := Ideal) (Wv (Proc.devRef .tc main_arg1)) := by
  simp only [hostOps1]; host_eval; rfl
theorem a1_wt : StableHlo.after (hostOps1 (F := Ideal)) Wv (Proc.devRef .tc main_v10) = Cert.ReferenceIdeal.Read.val_main_v9 (F := Ideal) (Wv (Proc.devRef .tc main_arg2)) := by
  simp only [hostOps1]; host_eval; rfl
theorem a1_deg : StableHlo.after (hostOps1 (F := Ideal)) Wv (Proc.devRef .tc main_v13) = Cert.ReferenceIdeal.Read.val_main_v12 (F := Ideal) (Wv (Proc.devRef .tc main_arg1)) (Wv (Proc.devRef .tc main_arg2)) := by
  simp only [hostOps1]; host_eval; rfl
theorem a1_pos : StableHlo.after (hostOps1 (F := Ideal)) Wv (Proc.devRef .tc main_v15) = Cert.ReferenceIdeal.Read.val_main_v14 (F := Ideal) (Wv (Proc.devRef .tc main_arg1)) (Wv (Proc.devRef .tc main_arg2)) := by
  simp only [hostOps1]; host_eval; rfl
theorem a1_one : StableHlo.after (hostOps1 (F := Ideal)) Wv (Proc.devRef .tc main_cst_2) = Cert.ReferenceIdeal.Read.val_main_cst_2 (F := Ideal) := by
  simp only [hostOps1]; host_eval; rfl
theorem a1_h : StableHlo.after (hostOps1 (F := Ideal)) Wv (Proc.devRef .tc main_v1_0) = (Wv (Proc.devRef .tc main_v1_0)) := by
  simp only [hostOps1]; host_eval

theorem b1_safe : StableHlo.after (hostOps1_1 (F := Ideal)) Wv (Proc.devRef .tc main_v16)
    = select (s := S50000) (α := Ideal .f32) (Wv (Proc.devRef .tc main_v15)) (Wv (Proc.devRef .tc main_v13)) (broadcastInDim S50000 ![] bcast_S_S50000 (Wv (Proc.devRef .tc main_cst_2))) := by
  simp only [hostOps1_1]; host_eval; simp only [TRef.toBuf, TRef.ofBuf, cast_eq]; rfl
theorem b1_row : StableHlo.after (hostOps1_1 (F := Ideal)) Wv (Proc.devRef .tc main_v5) = (Wv (Proc.devRef .tc main_v5)) := by
  simp only [hostOps1_1]; host_eval
theorem b1_col : StableHlo.after (hostOps1_1 (F := Ideal)) Wv (Proc.devRef .tc main_v8) = (Wv (Proc.devRef .tc main_v8)) := by
  simp only [hostOps1_1]; host_eval
theorem b1_wt : StableHlo.after (hostOps1_1 (F := Ideal)) Wv (Proc.devRef .tc main_v10) = (Wv (Proc.devRef .tc main_v10)) := by
  simp only [hostOps1_1]; host_eval
theorem b1_deg : StableHlo.after (hostOps1_1 (F := Ideal)) Wv (Proc.devRef .tc main_v13) = (Wv (Proc.devRef .tc main_v13)) := by
  simp only [hostOps1_1]; host_eval
theorem b1_h : StableHlo.after (hostOps1_1 (F := Ideal)) Wv (Proc.devRef .tc main_v1_0) = (Wv (Proc.devRef .tc main_v1_0)) := by
  simp only [hostOps1_1]; host_eval

theorem c1_pos2 : StableHlo.after (hostOps1_2 (F := Ideal)) Wv (Proc.devRef .tc main_v18)
    = cmpf (F := Ideal) (s := S50000) (φ := .f32) .ogt (Wv (Proc.devRef .tc main_v13)) (broadcastInDim S50000 ![] bcast_S_S50000 (constant (F := Ideal) S_ .f32 0x00000000#32)) := by
  simp only [hostOps1_2]; host_eval
theorem c1_rs : StableHlo.after (hostOps1_2 (F := Ideal)) Wv (Proc.devRef .tc main_v19) = Host.rsqrt (F := Ideal) (s := S50000) (φ := .f32) (Wv (Proc.devRef .tc main_v16)) := by
  simp only [hostOps1_2]; host_eval
theorem c1_zero : StableHlo.after (hostOps1_2 (F := Ideal)) Wv (Proc.devRef .tc main_cst_4) = constant (F := Ideal) S_ .f32 0x00000000#32 := by
  simp only [hostOps1_2]; host_eval
theorem c1_row : StableHlo.after (hostOps1_2 (F := Ideal)) Wv (Proc.devRef .tc main_v5) = (Wv (Proc.devRef .tc main_v5)) := by
  simp only [hostOps1_2]; host_eval
theorem c1_col : StableHlo.after (hostOps1_2 (F := Ideal)) Wv (Proc.devRef .tc main_v8) = (Wv (Proc.devRef .tc main_v8)) := by
  simp only [hostOps1_2]; host_eval
theorem c1_wt : StableHlo.after (hostOps1_2 (F := Ideal)) Wv (Proc.devRef .tc main_v10) = (Wv (Proc.devRef .tc main_v10)) := by
  simp only [hostOps1_2]; host_eval
theorem c1_h : StableHlo.after (hostOps1_2 (F := Ideal)) Wv (Proc.devRef .tc main_v1_0) = (Wv (Proc.devRef .tc main_v1_0)) := by
  simp only [hostOps1_2]; host_eval

theorem d1_dinv : StableHlo.after (hostOps1_3 (F := Ideal)) Wv (Proc.devRef .tc main_v20)
    = select (s := S50000) (α := Ideal .f32) (Wv (Proc.devRef .tc main_v18)) (Wv (Proc.devRef .tc main_v19)) (broadcastInDim S50000 ![] bcast_S_S50000 (Wv (Proc.devRef .tc main_cst_4))) := by
  simp only [hostOps1_3]; host_eval; simp only [TRef.toBuf, TRef.ofBuf, cast_eq]; rfl
theorem d1_row : StableHlo.after (hostOps1_3 (F := Ideal)) Wv (Proc.devRef .tc main_v5) = (Wv (Proc.devRef .tc main_v5)) := by
  simp only [hostOps1_3]; host_eval
theorem d1_col : StableHlo.after (hostOps1_3 (F := Ideal)) Wv (Proc.devRef .tc main_v8) = (Wv (Proc.devRef .tc main_v8)) := by
  simp only [hostOps1_3]; host_eval
theorem d1_wt : StableHlo.after (hostOps1_3 (F := Ideal)) Wv (Proc.devRef .tc main_v10) = (Wv (Proc.devRef .tc main_v10)) := by
  simp only [hostOps1_3]; host_eval
theorem d1_h : StableHlo.after (hostOps1_3 (F := Ideal)) Wv (Proc.devRef .tc main_v1_0) = (Wv (Proc.devRef .tc main_v1_0)) := by
  simp only [hostOps1_3]; host_eval

set_option maxHeartbeats 2000000 in
theorem e1_out : StableHlo.after (hostOps1_4 (F := Ideal)) Wv (Proc.devRef .tc main_v49)
    = Cert.Gcn.aggCore (Wv (Proc.devRef .tc main_v20)) (Wv (Proc.devRef .tc main_v5)) (Wv (Proc.devRef .tc main_v8)) (Wv (Proc.devRef .tc main_v10)) (Wv (Proc.devRef .tc main_v1_0)) := by
  simp only [hostOps1_4]; host_eval; rfl

/-- The stretch's last array is the edge aggregation of the product the launch before it left. -/
theorem agg1 : StableHlo.after hostOps1_4 (StableHlo.after hostOps1_3 (StableHlo.after hostOps1_2 (StableHlo.after hostOps1_1 (StableHlo.after (hostOps1 (F := Ideal)) Wv)))) (Proc.devRef .tc main_v49)
    = Cert.Gcn.agg (Wv (Proc.devRef .tc main_v1_0)) (Wv (Proc.devRef .tc main_arg1)) (Wv (Proc.devRef .tc main_arg2)) := by
  -- after the first list
  have r3 := a1_row Wv; have c3 := a1_col Wv; have w3 := a1_wt Wv; have h3 := a1_h Wv
  -- after the second: the degrees made safe
  have s4 : StableHlo.after (hostOps1_1 (F := Ideal)) (StableHlo.after (hostOps1 (F := Ideal)) Wv) (Proc.devRef .tc main_v16) = Cert.ReferenceIdeal.Read.val_main_v15 (F := Ideal) (Wv (Proc.devRef .tc main_arg1)) (Wv (Proc.devRef .tc main_arg2)) :=
    (b1_safe (StableHlo.after (hostOps1 (F := Ideal)) Wv)).trans (by rw [a1_pos Wv, a1_deg Wv, a1_one Wv]; rfl)
  have g4 := (b1_deg (StableHlo.after (hostOps1 (F := Ideal)) Wv)).trans (a1_deg Wv)
  have r4 := (b1_row (StableHlo.after (hostOps1 (F := Ideal)) Wv)).trans r3
  have c4 := (b1_col (StableHlo.after (hostOps1 (F := Ideal)) Wv)).trans c3
  have w4 := (b1_wt (StableHlo.after (hostOps1 (F := Ideal)) Wv)).trans w3
  have h4 := (b1_h (StableHlo.after (hostOps1 (F := Ideal)) Wv)).trans h3
  -- after the third: the mask again, the inverse square roots, the zero
  have p5 : StableHlo.after (hostOps1_2 (F := Ideal)) (StableHlo.after (hostOps1_1 (F := Ideal)) (StableHlo.after (hostOps1 (F := Ideal)) Wv)) (Proc.devRef .tc main_v18) = Cert.ReferenceIdeal.Read.val_main_v17 (F := Ideal) (Wv (Proc.devRef .tc main_arg1)) (Wv (Proc.devRef .tc main_arg2)) :=
    (c1_pos2 _).trans (by rw [g4]; rfl)
  have q5 : StableHlo.after (hostOps1_2 (F := Ideal)) (StableHlo.after (hostOps1_1 (F := Ideal)) (StableHlo.after (hostOps1 (F := Ideal)) Wv)) (Proc.devRef .tc main_v19) = Cert.ReferenceIdeal.Read.val_main_v18 (F := Ideal) (Wv (Proc.devRef .tc main_arg1)) (Wv (Proc.devRef .tc main_arg2)) :=
    (c1_rs _).trans (by rw [s4]; rfl)
  have z5 := c1_zero (StableHlo.after (hostOps1_1 (F := Ideal)) (StableHlo.after (hostOps1 (F := Ideal)) Wv))
  have r5 := (c1_row _).trans r4
  have c5 := (c1_col _).trans c4
  have w5 := (c1_wt _).trans w4
  have h5 := (c1_h _).trans h4
  -- after the fourth: the per-node factors
  have d6 : StableHlo.after (hostOps1_3 (F := Ideal)) (StableHlo.after (hostOps1_2 (F := Ideal)) (StableHlo.after (hostOps1_1 (F := Ideal)) (StableHlo.after (hostOps1 (F := Ideal)) Wv))) (Proc.devRef .tc main_v20) = Cert.ReferenceIdeal.Read.val_main_v19 (F := Ideal) (Wv (Proc.devRef .tc main_arg1)) (Wv (Proc.devRef .tc main_arg2)) :=
    (d1_dinv _).trans (by rw [p5, q5, z5]; rfl)
  have r6 := (d1_row _).trans r5
  have c6 := (d1_col _).trans c5
  have w6 := (d1_wt _).trans w5
  have h6 := (d1_h _).trans h5
  -- the fifth list
  refine (e1_out _).trans ?_
  rw [d6, r6, c6, w6, h6]
  rfl

/-! ## The stretch between the second and the third launch -/

theorem keep2_main_arg1 : StableHlo.after (hostOps2 (F := Ideal)) Wv (Proc.devRef .tc main_arg1) = (Wv (Proc.devRef .tc main_arg1)) := by
  simp only [hostOps2]
  host_eval

theorem keep2_main_arg2 : StableHlo.after (hostOps2 (F := Ideal)) Wv (Proc.devRef .tc main_arg2) = (Wv (Proc.devRef .tc main_arg2)) := by
  simp only [hostOps2]
  host_eval

theorem keep2_main_arg5 : StableHlo.after (hostOps2 (F := Ideal)) Wv (Proc.devRef .tc main_arg5) = (Wv (Proc.devRef .tc main_arg5)) := by
  simp only [hostOps2]
  host_eval

theorem keep2_main_arg6 : StableHlo.after (hostOps2 (F := Ideal)) Wv (Proc.devRef .tc main_arg6) = (Wv (Proc.devRef .tc main_arg6)) := by
  simp only [hostOps2]
  host_eval

theorem keep2_main_arg9 : StableHlo.after (hostOps2 (F := Ideal)) Wv (Proc.devRef .tc main_arg9) = (Wv (Proc.devRef .tc main_arg9)) := by
  simp only [hostOps2]
  host_eval

theorem keep2_main_v51 : StableHlo.after (hostOps2 (F := Ideal)) Wv (Proc.devRef .tc main_v51) = (Wv (Proc.devRef .tc main_v51)) := by
  simp only [hostOps2]
  host_eval

/-- The bias vector laid out as a one-row matrix. -/
theorem row2 : StableHlo.after (hostOps2 (F := Ideal)) Wv (Proc.devRef .tc main_v52) = shapeCast S1x96 (Wv (Proc.devRef .tc main_arg10)) shapeCasts_S96_S1x96 := by
  simp only [hostOps2]
  host_eval
  rfl

/-! ## The stretch between the third and the fourth launch -/

theorem keep3_main_v51 : StableHlo.after hostOps3_4 (StableHlo.after hostOps3_3 (StableHlo.after hostOps3_2 (StableHlo.after hostOps3_1 (StableHlo.after (hostOps3 (F := Ideal)) Wv)))) (Proc.devRef .tc main_v51) = (Wv (Proc.devRef .tc main_v51)) := by
  simp only [hostOps3, hostOps3_1, hostOps3_2, hostOps3_3, hostOps3_4]
  host_eval

theorem keep3_main_v53_1 : StableHlo.after hostOps3_4 (StableHlo.after hostOps3_3 (StableHlo.after hostOps3_2 (StableHlo.after hostOps3_1 (StableHlo.after (hostOps3 (F := Ideal)) Wv)))) (Proc.devRef .tc main_v53_1) = (Wv (Proc.devRef .tc main_v53_1)) := by
  simp only [hostOps3, hostOps3_1, hostOps3_2, hostOps3_3, hostOps3_4]
  host_eval

/-- The bias vector laid out as a one-row matrix. -/
theorem row3 : StableHlo.after hostOps3_4 (StableHlo.after hostOps3_3 (StableHlo.after hostOps3_2 (StableHlo.after hostOps3_1 (StableHlo.after (hostOps3 (F := Ideal)) Wv)))) (Proc.devRef .tc main_v102) = shapeCast S1x96 (Wv (Proc.devRef .tc main_arg6)) shapeCasts_S96_S1x96 := by
  simp only [hostOps3, hostOps3_1, hostOps3_2, hostOps3_3, hostOps3_4]
  host_eval
  rfl

/-! ### The edge aggregation of stretch 3, one piece at a time

The stretch is five lists of operations. The first builds, from the edge list and the edge weights, the two ends of every
edge with the self-loops appended, the weights with ones appended, the nodes' degrees and the mask of the positive ones. The
second and the fourth are a select against a splatted constant; the third takes the inverse square root of the degrees made
safe. The fifth gathers, scales and scatter-adds. Each piece is read over whatever the buffers held before it. -/

theorem a3_row : StableHlo.after (hostOps3 (F := Ideal)) Wv (Proc.devRef .tc main_v57) = Cert.ReferenceIdeal.Read.val_main_v4 (F := Ideal) (Wv (Proc.devRef .tc main_arg1)) := by
  simp only [hostOps3]; host_eval; rfl
theorem a3_col : StableHlo.after (hostOps3 (F := Ideal)) Wv (Proc.devRef .tc main_v60) = Cert.ReferenceIdeal.Read.val_main_v7 (F := Ideal) (Wv (Proc.devRef .tc main_arg1)) := by
  simp only [hostOps3]; host_eval; rfl
theorem a3_wt : StableHlo.after (hostOps3 (F := Ideal)) Wv (Proc.devRef .tc main_v62) = Cert.ReferenceIdeal.Read.val_main_v9 (F := Ideal) (Wv (Proc.devRef .tc main_arg2)) := by
  simp only [hostOps3]; host_eval; rfl
theorem a3_deg : StableHlo.after (hostOps3 (F := Ideal)) Wv (Proc.devRef .tc main_v65) = Cert.ReferenceIdeal.Read.val_main_v12 (F := Ideal) (Wv (Proc.devRef .tc main_arg1)) (Wv (Proc.devRef .tc main_arg2)) := by
  simp only [hostOps3]; host_eval; rfl
theorem a3_pos : StableHlo.after (hostOps3 (F := Ideal)) Wv (Proc.devRef .tc main_v67) = Cert.ReferenceIdeal.Read.val_main_v14 (F := Ideal) (Wv (Proc.devRef .tc main_arg1)) (Wv (Proc.devRef .tc main_arg2)) := by
  simp only [hostOps3]; host_eval; rfl
theorem a3_one : StableHlo.after (hostOps3 (F := Ideal)) Wv (Proc.devRef .tc main_cst_14) = Cert.ReferenceIdeal.Read.val_main_cst_2 (F := Ideal) := by
  simp only [hostOps3]; host_eval; rfl
theorem a3_h : StableHlo.after (hostOps3 (F := Ideal)) Wv (Proc.devRef .tc main_v53_0) = (Wv (Proc.devRef .tc main_v53_0)) := by
  simp only [hostOps3]; host_eval

theorem b3_safe : StableHlo.after (hostOps3_1 (F := Ideal)) Wv (Proc.devRef .tc main_v68)
    = select (s := S50000) (α := Ideal .f32) (Wv (Proc.devRef .tc main_v67)) (Wv (Proc.devRef .tc main_v65)) (broadcastInDim S50000 ![] bcast_S_S50000 (Wv (Proc.devRef .tc main_cst_14))) := by
  simp only [hostOps3_1]; host_eval; simp only [TRef.toBuf, TRef.ofBuf, cast_eq]; rfl
theorem b3_row : StableHlo.after (hostOps3_1 (F := Ideal)) Wv (Proc.devRef .tc main_v57) = (Wv (Proc.devRef .tc main_v57)) := by
  simp only [hostOps3_1]; host_eval
theorem b3_col : StableHlo.after (hostOps3_1 (F := Ideal)) Wv (Proc.devRef .tc main_v60) = (Wv (Proc.devRef .tc main_v60)) := by
  simp only [hostOps3_1]; host_eval
theorem b3_wt : StableHlo.after (hostOps3_1 (F := Ideal)) Wv (Proc.devRef .tc main_v62) = (Wv (Proc.devRef .tc main_v62)) := by
  simp only [hostOps3_1]; host_eval
theorem b3_deg : StableHlo.after (hostOps3_1 (F := Ideal)) Wv (Proc.devRef .tc main_v65) = (Wv (Proc.devRef .tc main_v65)) := by
  simp only [hostOps3_1]; host_eval
theorem b3_h : StableHlo.after (hostOps3_1 (F := Ideal)) Wv (Proc.devRef .tc main_v53_0) = (Wv (Proc.devRef .tc main_v53_0)) := by
  simp only [hostOps3_1]; host_eval

theorem c3_pos2 : StableHlo.after (hostOps3_2 (F := Ideal)) Wv (Proc.devRef .tc main_v70)
    = cmpf (F := Ideal) (s := S50000) (φ := .f32) .ogt (Wv (Proc.devRef .tc main_v65)) (broadcastInDim S50000 ![] bcast_S_S50000 (constant (F := Ideal) S_ .f32 0x00000000#32)) := by
  simp only [hostOps3_2]; host_eval
theorem c3_rs : StableHlo.after (hostOps3_2 (F := Ideal)) Wv (Proc.devRef .tc main_v71) = Host.rsqrt (F := Ideal) (s := S50000) (φ := .f32) (Wv (Proc.devRef .tc main_v68)) := by
  simp only [hostOps3_2]; host_eval
theorem c3_zero : StableHlo.after (hostOps3_2 (F := Ideal)) Wv (Proc.devRef .tc main_cst_16) = constant (F := Ideal) S_ .f32 0x00000000#32 := by
  simp only [hostOps3_2]; host_eval
theorem c3_row : StableHlo.after (hostOps3_2 (F := Ideal)) Wv (Proc.devRef .tc main_v57) = (Wv (Proc.devRef .tc main_v57)) := by
  simp only [hostOps3_2]; host_eval
theorem c3_col : StableHlo.after (hostOps3_2 (F := Ideal)) Wv (Proc.devRef .tc main_v60) = (Wv (Proc.devRef .tc main_v60)) := by
  simp only [hostOps3_2]; host_eval
theorem c3_wt : StableHlo.after (hostOps3_2 (F := Ideal)) Wv (Proc.devRef .tc main_v62) = (Wv (Proc.devRef .tc main_v62)) := by
  simp only [hostOps3_2]; host_eval
theorem c3_h : StableHlo.after (hostOps3_2 (F := Ideal)) Wv (Proc.devRef .tc main_v53_0) = (Wv (Proc.devRef .tc main_v53_0)) := by
  simp only [hostOps3_2]; host_eval

theorem d3_dinv : StableHlo.after (hostOps3_3 (F := Ideal)) Wv (Proc.devRef .tc main_v72)
    = select (s := S50000) (α := Ideal .f32) (Wv (Proc.devRef .tc main_v70)) (Wv (Proc.devRef .tc main_v71)) (broadcastInDim S50000 ![] bcast_S_S50000 (Wv (Proc.devRef .tc main_cst_16))) := by
  simp only [hostOps3_3]; host_eval; simp only [TRef.toBuf, TRef.ofBuf, cast_eq]; rfl
theorem d3_row : StableHlo.after (hostOps3_3 (F := Ideal)) Wv (Proc.devRef .tc main_v57) = (Wv (Proc.devRef .tc main_v57)) := by
  simp only [hostOps3_3]; host_eval
theorem d3_col : StableHlo.after (hostOps3_3 (F := Ideal)) Wv (Proc.devRef .tc main_v60) = (Wv (Proc.devRef .tc main_v60)) := by
  simp only [hostOps3_3]; host_eval
theorem d3_wt : StableHlo.after (hostOps3_3 (F := Ideal)) Wv (Proc.devRef .tc main_v62) = (Wv (Proc.devRef .tc main_v62)) := by
  simp only [hostOps3_3]; host_eval
theorem d3_h : StableHlo.after (hostOps3_3 (F := Ideal)) Wv (Proc.devRef .tc main_v53_0) = (Wv (Proc.devRef .tc main_v53_0)) := by
  simp only [hostOps3_3]; host_eval

set_option maxHeartbeats 2000000 in
theorem e3_out : StableHlo.after (hostOps3_4 (F := Ideal)) Wv (Proc.devRef .tc main_v101)
    = Cert.Gcn.aggCore (Wv (Proc.devRef .tc main_v72)) (Wv (Proc.devRef .tc main_v57)) (Wv (Proc.devRef .tc main_v60)) (Wv (Proc.devRef .tc main_v62)) (Wv (Proc.devRef .tc main_v53_0)) := by
  simp only [hostOps3_4]; host_eval; rfl

/-- The stretch's last array is the edge aggregation of the product the launch before it left. -/
theorem agg3 : StableHlo.after hostOps3_4 (StableHlo.after hostOps3_3 (StableHlo.after hostOps3_2 (StableHlo.after hostOps3_1 (StableHlo.after (hostOps3 (F := Ideal)) Wv)))) (Proc.devRef .tc main_v101)
    = Cert.Gcn.agg (Wv (Proc.devRef .tc main_v53_0)) (Wv (Proc.devRef .tc main_arg1)) (Wv (Proc.devRef .tc main_arg2)) := by
  -- after the first list
  have r3 := a3_row Wv; have c3 := a3_col Wv; have w3 := a3_wt Wv; have h3 := a3_h Wv
  -- after the second: the degrees made safe
  have s4 : StableHlo.after (hostOps3_1 (F := Ideal)) (StableHlo.after (hostOps3 (F := Ideal)) Wv) (Proc.devRef .tc main_v68) = Cert.ReferenceIdeal.Read.val_main_v15 (F := Ideal) (Wv (Proc.devRef .tc main_arg1)) (Wv (Proc.devRef .tc main_arg2)) :=
    (b3_safe (StableHlo.after (hostOps3 (F := Ideal)) Wv)).trans (by rw [a3_pos Wv, a3_deg Wv, a3_one Wv]; rfl)
  have g4 := (b3_deg (StableHlo.after (hostOps3 (F := Ideal)) Wv)).trans (a3_deg Wv)
  have r4 := (b3_row (StableHlo.after (hostOps3 (F := Ideal)) Wv)).trans r3
  have c4 := (b3_col (StableHlo.after (hostOps3 (F := Ideal)) Wv)).trans c3
  have w4 := (b3_wt (StableHlo.after (hostOps3 (F := Ideal)) Wv)).trans w3
  have h4 := (b3_h (StableHlo.after (hostOps3 (F := Ideal)) Wv)).trans h3
  -- after the third: the mask again, the inverse square roots, the zero
  have p5 : StableHlo.after (hostOps3_2 (F := Ideal)) (StableHlo.after (hostOps3_1 (F := Ideal)) (StableHlo.after (hostOps3 (F := Ideal)) Wv)) (Proc.devRef .tc main_v70) = Cert.ReferenceIdeal.Read.val_main_v17 (F := Ideal) (Wv (Proc.devRef .tc main_arg1)) (Wv (Proc.devRef .tc main_arg2)) :=
    (c3_pos2 _).trans (by rw [g4]; rfl)
  have q5 : StableHlo.after (hostOps3_2 (F := Ideal)) (StableHlo.after (hostOps3_1 (F := Ideal)) (StableHlo.after (hostOps3 (F := Ideal)) Wv)) (Proc.devRef .tc main_v71) = Cert.ReferenceIdeal.Read.val_main_v18 (F := Ideal) (Wv (Proc.devRef .tc main_arg1)) (Wv (Proc.devRef .tc main_arg2)) :=
    (c3_rs _).trans (by rw [s4]; rfl)
  have z5 := c3_zero (StableHlo.after (hostOps3_1 (F := Ideal)) (StableHlo.after (hostOps3 (F := Ideal)) Wv))
  have r5 := (c3_row _).trans r4
  have c5 := (c3_col _).trans c4
  have w5 := (c3_wt _).trans w4
  have h5 := (c3_h _).trans h4
  -- after the fourth: the per-node factors
  have d6 : StableHlo.after (hostOps3_3 (F := Ideal)) (StableHlo.after (hostOps3_2 (F := Ideal)) (StableHlo.after (hostOps3_1 (F := Ideal)) (StableHlo.after (hostOps3 (F := Ideal)) Wv))) (Proc.devRef .tc main_v72) = Cert.ReferenceIdeal.Read.val_main_v19 (F := Ideal) (Wv (Proc.devRef .tc main_arg1)) (Wv (Proc.devRef .tc main_arg2)) :=
    (d3_dinv _).trans (by rw [p5, q5, z5]; rfl)
  have r6 := (d3_row _).trans r5
  have c6 := (d3_col _).trans c5
  have w6 := (d3_wt _).trans w5
  have h6 := (d3_h _).trans h5
  -- the fifth list
  refine (e3_out _).trans ?_
  rw [d6, r6, c6, w6, h6]
  rfl

end Cert.KernelIdeal.Host

end
-- ==== Proof.KernelRun.lean ====
/-
  The kernel program's run with its result named. The program is four tiled launches among stretches of host
  operations; its frame run walks the buffers' contents from the launch memory through every stretch and every launch
  to the contents at the return (`W16`). The frame claim keeps of that last valuation only the argument arrays; here
  the same run is stated with the result array read off it as well, so that a value proof can open it.
-/
import proofs.«121213_j7988639171255_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array holding what the last
    boundary's valuation gives it and the argument arrays what they held at the launch. -/
theorem run : θ_run defs (onTc (τ := τ) (main (F := F))) ⟨m, fun _ => 0, ρ⟩ (fun r => ∀ c : Dev nD,
      r.2.mem ((c.tc : Thread nD τ).loc main_v103) = W16 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v103 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.Whole

end
-- ==== Proof.Net.lean ====
/-
  The kernel program's result array as the network of its arguments.

  The run's frame names the buffers' contents at every boundary between a stretch of host operations and a launch.
  Walking them from the launch memory: no stretch and no launch writes an argument array; the first launch leaves the
  product of the features with the first weight matrix and the gate; the stretch after it leaves the edge aggregation
  of that product; the second launch leaves the gated residual, which is the first layer's output; the third and the
  fourth launch and the stretch between them do the same with the first layer's output and the second layer's
  matrices. So the result array is the two layers applied to the arguments.
-/
import proofs.«121213_j7988639171255_1_alg».proof.Proof.Gen.KernelIdeal.Frame
import proofs.«121213_j7988639171255_1_alg».proof.Proof.Reg0
import proofs.«121213_j7988639171255_1_alg».proof.Proof.Reg1
import proofs.«121213_j7988639171255_1_alg».proof.Proof.Reg2
import proofs.«121213_j7988639171255_1_alg».proof.Proof.Reg3
import proofs.«121213_j7988639171255_1_alg».proof.Proof.Host
import proofs.«121213_j7988639171255_1_alg».proof.Proof.KernelRun

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx
open Idealize.ShloMosaic.Pipeline (Dat)

theorem congr2 {α β δ : Type} (f : α → β → δ) {a a' : α} {b b' : β} (ha : a = a') (hb : b = b') : f a b = f a' b' := by
  subst ha hb; rfl
theorem congr3 {α β γ δ : Type} (f : α → β → γ → δ) {a a' : α} {b b' : β} {c c' : γ} (ha : a = a') (hb : b = b')
    (hc : c = c') : f a b c = f a' b' c' := by
  subst ha hb hc; rfl
theorem congr4 {α β γ ε δ : Type} (f : α → β → γ → ε → δ) {a a' : α} {b b' : β} {c c' : γ} {d d' : ε} (ha : a = a')
    (hb : b = b') (hc : c = c') (hd : d = d') : f a b c d = f a' b' c' d' := by
  subst ha hb hc hd; rfl

/-- A vector of 96 numbers reshaped to one row is the vector laid out as a row: entry `(0, j)` of either is entry `j`. -/
theorem row_eq (b : FVec Ideal S96 .f32) : shapeCast S1x96 b shapeCasts_S96_S1x96 = Cert.Gcn.asRow b := by
  funext i
  obtain ⟨u, j, rfl⟩ : ∃ (u : Fin 1) (j : Fin 96), i = ix2 u j := ⟨i 0, i 1, eq_ix2 i⟩
  have hu : u = 0 := Fin.ext (by omega)
  subst hu
  unfold Cert.Gcn.asRow
  refine (shapeCast_apply b shapeCasts_S96_S1x96 (ix2 (0 : Fin 1) j) (ix1 j) ?_).trans
    (broadcastInDim_apply _ _ b (ix2 (0 : Fin 1) j) (ix1 j) (fun a => ?_)).symm
  · rw [Shape.rowMajor_val_two, Shape.rowMajor_val_one]
    show j.val = 0 * 96 + j.val
    omega
  · match a with
    | ⟨0, _⟩ => exact (show j.val = if (96 : ℕ) = 1 then 0 else j.val by rw [if_neg (by decide)])

variable (m : (ℓ : Loc nD τ sig) → Buf (Elt Ideal) ℓ) (ρ : Dev nD → PrngReg) (c : Dev nD)

/-! ## Up to the first launch -/
theorem w1_arg0 : W1 m ρ c (Proc.devRef .tc main_arg0) = (m ((c : Thread nD τ).loc main_arg0)) := Host.keep0_main_arg0 (W0 m ρ c)
theorem w1_arg1 : W1 m ρ c (Proc.devRef .tc main_arg1) = (m ((c : Thread nD τ).loc main_arg1)) := Host.keep0_main_arg1 (W0 m ρ c)
theorem w1_arg2 : W1 m ρ c (Proc.devRef .tc main_arg2) = (m ((c : Thread nD τ).loc main_arg2)) := Host.keep0_main_arg2 (W0 m ρ c)
theorem w1_arg3 : W1 m ρ c (Proc.devRef .tc main_arg3) = (m ((c : Thread nD τ).loc main_arg3)) := Host.keep0_main_arg3 (W0 m ρ c)
theorem w1_arg4 : W1 m ρ c (Proc.devRef .tc main_arg4) = (m ((c : Thread nD τ).loc main_arg4)) := Host.keep0_main_arg4 (W0 m ρ c)
theorem w1_arg5 : W1 m ρ c (Proc.devRef .tc main_arg5) = (m ((c : Thread nD τ).loc main_arg5)) := Host.keep0_main_arg5 (W0 m ρ c)
theorem w1_arg6 : W1 m ρ c (Proc.devRef .tc main_arg6) = (m ((c : Thread nD τ).loc main_arg6)) := Host.keep0_main_arg6 (W0 m ρ c)
theorem w1_arg7 : W1 m ρ c (Proc.devRef .tc main_arg7) = (m ((c : Thread nD τ).loc main_arg7)) := Host.keep0_main_arg7 (W0 m ρ c)
theorem w1_arg9 : W1 m ρ c (Proc.devRef .tc main_arg9) = (m ((c : Thread nD τ).loc main_arg9)) := Host.keep0_main_arg9 (W0 m ρ c)
theorem w1_arg10 : W1 m ρ c (Proc.devRef .tc main_arg10) = (m ((c : Thread nD τ).loc main_arg10)) := Host.keep0_main_arg10 (W0 m ρ c)
theorem w1_row : W1 m ρ c (Proc.devRef .tc main_v0) = Cert.Gcn.asRow (m ((c : Thread nD τ).loc main_arg8)) := (Host.row0 (W0 m ρ c)).trans (row_eq _)

/-! ## After the first launch -/
theorem w2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (w1_arg0 m ρ c)
theorem w2_arg1 : W2 m ρ c (Proc.devRef .tc main_arg1) = (m ((c : Thread nD τ).loc main_arg1)) := (W2_of_ne m ρ c main_arg1 (by decide)).trans (w1_arg1 m ρ c)
theorem w2_arg2 : W2 m ρ c (Proc.devRef .tc main_arg2) = (m ((c : Thread nD τ).loc main_arg2)) := (W2_of_ne m ρ c main_arg2 (by decide)).trans (w1_arg2 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_h : W2 m ρ c (Proc.devRef .tc main_v1_0) = Cert.Gcn.prod (m ((c : Thread nD τ).loc main_arg0)) (m ((c : Thread nD τ).loc main_arg3)) :=
  (W2_arr m ρ c 4).trans ((Reg0.final4 (V1 m ρ) c).trans (congr2 Cert.Gcn.prod (w1_arg0 m ρ c) (w1_arg3 m ρ c)))
theorem w2_g : W2 m ρ c (Proc.devRef .tc main_v1_1) = Cert.Gcn.gateR (m ((c : Thread nD τ).loc main_arg0)) (m ((c : Thread nD τ).loc main_arg7)) (Cert.Gcn.asRow (m ((c : Thread nD τ).loc main_arg8))) :=
  (W2_arr m ρ c 5).trans ((Reg0.final5 (V1 m ρ) c).trans (congr3 Cert.Gcn.gateR (w1_arg0 m ρ c) (w1_arg7 m ρ c) (w1_row m ρ c)))

/-! ## Up to the second launch -/
theorem w7_arg0 : W7 m ρ c (Proc.devRef .tc main_arg0) = (m ((c : Thread nD τ).loc main_arg0)) := (Host.keep1_main_arg0 (W2 m ρ c)).trans (w2_arg0 m ρ c)
theorem w7_arg1 : W7 m ρ c (Proc.devRef .tc main_arg1) = (m ((c : Thread nD τ).loc main_arg1)) := (Host.keep1_main_arg1 (W2 m ρ c)).trans (w2_arg1 m ρ c)
theorem w7_arg2 : W7 m ρ c (Proc.devRef .tc main_arg2) = (m ((c : Thread nD τ).loc main_arg2)) := (Host.keep1_main_arg2 (W2 m ρ c)).trans (w2_arg2 m ρ c)
theorem w7_arg5 : W7 m ρ c (Proc.devRef .tc main_arg5) = (m ((c : Thread nD τ).loc main_arg5)) := (Host.keep1_main_arg5 (W2 m ρ c)).trans (w2_arg5 m ρ c)
theorem w7_arg6 : W7 m ρ c (Proc.devRef .tc main_arg6) = (m ((c : Thread nD τ).loc main_arg6)) := (Host.keep1_main_arg6 (W2 m ρ c)).trans (w2_arg6 m ρ c)
theorem w7_arg9 : W7 m ρ c (Proc.devRef .tc main_arg9) = (m ((c : Thread nD τ).loc main_arg9)) := (Host.keep1_main_arg9 (W2 m ρ c)).trans (w2_arg9 m ρ c)
theorem w7_arg10 : W7 m ρ c (Proc.devRef .tc main_arg10) = (m ((c : Thread nD τ).loc main_arg10)) := (Host.keep1_main_arg10 (W2 m ρ c)).trans (w2_arg10 m ρ c)
theorem w7_g : W7 m ρ c (Proc.devRef .tc main_v1_1) = Cert.Gcn.gateR (m ((c : Thread nD τ).loc main_arg0)) (m ((c : Thread nD τ).loc main_arg7)) (Cert.Gcn.asRow (m ((c : Thread nD τ).loc main_arg8))) :=
  (Host.keep1_main_v1_1 (W2 m ρ c)).trans (w2_g m ρ c)
theorem w7_a : W7 m ρ c (Proc.devRef .tc main_v49) = Cert.Gcn.agg (Cert.Gcn.prod (m ((c : Thread nD τ).loc main_arg0)) (m ((c : Thread nD τ).loc main_arg3))) (m ((c : Thread nD τ).loc main_arg1)) (m ((c : Thread nD τ).loc main_arg2)) :=
  (Host.agg1 (W2 m ρ c)).trans (congr3 Cert.Gcn.agg (w2_h m ρ c) (w2_arg1 m ρ c) (w2_arg2 m ρ c))
theorem w7_row : W7 m ρ c (Proc.devRef .tc main_v50) = Cert.Gcn.asRow (m ((c : Thread nD τ).loc main_arg4)) :=
  (Host.row1 (W2 m ρ c)).trans ((congrArg (fun b => shapeCast S1x96 b shapeCasts_S96_S1x96) (w2_arg4 m ρ c)).trans (row_eq _))

/-! ## After the second launch: the first layer's output -/
theorem w8_x : W8 m ρ c (Proc.devRef .tc main_v51) = (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W8_arr m ρ c 4).trans ((Reg1.final4 (V7 m ρ) c).trans
    (congr4 Cert.Gcn.mixR (w7_arg0 m ρ c) (w7_g m ρ c) (w7_a m ρ c) (w7_row m ρ c)))
theorem w8_arg1 : W8 m ρ c (Proc.devRef .tc main_arg1) = (m ((c : Thread nD τ).loc main_arg1)) := (W8_of_ne m ρ c main_arg1 (by decide)).trans (w7_arg1 m ρ c)
theorem w8_arg2 : W8 m ρ c (Proc.devRef .tc main_arg2) = (m ((c : Thread nD τ).loc main_arg2)) := (W8_of_ne m ρ c main_arg2 (by decide)).trans (w7_arg2 m ρ c)
theorem w8_arg5 : W8 m ρ c (Proc.devRef .tc main_arg5) = (m ((c : Thread nD τ).loc main_arg5)) := (W8_of_ne m ρ c main_arg5 (by decide)).trans (w7_arg5 m ρ c)
theorem w8_arg6 : W8 m ρ c (Proc.devRef .tc main_arg6) = (m ((c : Thread nD τ).loc main_arg6)) := (W8_of_ne m ρ c main_arg6 (by decide)).trans (w7_arg6 m ρ c)
theorem w8_arg9 : W8 m ρ c (Proc.devRef .tc main_arg9) = (m ((c : Thread nD τ).loc main_arg9)) := (W8_of_ne m ρ c main_arg9 (by decide)).trans (w7_arg9 m ρ c)
theorem w8_arg10 : W8 m ρ c (Proc.devRef .tc main_arg10) = (m ((c : Thread nD τ).loc main_arg10)) := (W8_of_ne m ρ c main_arg10 (by decide)).trans (w7_arg10 m ρ c)

/-! ## Up to the third launch -/
theorem w9_x : W9 m ρ c (Proc.devRef .tc main_v51) = (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := (Host.keep2_main_v51 (W8 m ρ c)).trans (w8_x m ρ c)
theorem w9_arg1 : W9 m ρ c (Proc.devRef .tc main_arg1) = (m ((c : Thread nD τ).loc main_arg1)) := (Host.keep2_main_arg1 (W8 m ρ c)).trans (w8_arg1 m ρ c)
theorem w9_arg2 : W9 m ρ c (Proc.devRef .tc main_arg2) = (m ((c : Thread nD τ).loc main_arg2)) := (Host.keep2_main_arg2 (W8 m ρ c)).trans (w8_arg2 m ρ c)
theorem w9_arg5 : W9 m ρ c (Proc.devRef .tc main_arg5) = (m ((c : Thread nD τ).loc main_arg5)) := (Host.keep2_main_arg5 (W8 m ρ c)).trans (w8_arg5 m ρ c)
theorem w9_arg6 : W9 m ρ c (Proc.devRef .tc main_arg6) = (m ((c : Thread nD τ).loc main_arg6)) := (Host.keep2_main_arg6 (W8 m ρ c)).trans (w8_arg6 m ρ c)
theorem w9_arg9 : W9 m ρ c (Proc.devRef .tc main_arg9) = (m ((c : Thread nD τ).loc main_arg9)) := (Host.keep2_main_arg9 (W8 m ρ c)).trans (w8_arg9 m ρ c)
theorem w9_row : W9 m ρ c (Proc.devRef .tc main_v52) = Cert.Gcn.asRow (m ((c : Thread nD τ).loc main_arg10)) :=
  (Host.row2 (W8 m ρ c)).trans ((congrArg (fun b => shapeCast S1x96 b shapeCasts_S96_S1x96) (w8_arg10 m ρ c)).trans (row_eq _))

/-! ## After the third launch -/
theorem w10_x : W10 m ρ c (Proc.devRef .tc main_v51) = (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  ((W10_arr m ρ c 0).trans (((dat2 (V9 m ρ) c).arrAt_in 0 rfl _).trans (A_eq2 (V9 m ρ) c 0))).trans (w9_x m ρ c)
theorem w10_arg1 : W10 m ρ c (Proc.devRef .tc main_arg1) = (m ((c : Thread nD τ).loc main_arg1)) := (W10_of_ne m ρ c main_arg1 (by decide)).trans (w9_arg1 m ρ c)
theorem w10_arg2 : W10 m ρ c (Proc.devRef .tc main_arg2) = (m ((c : Thread nD τ).loc main_arg2)) := (W10_of_ne m ρ c main_arg2 (by decide)).trans (w9_arg2 m ρ c)
theorem w10_arg6 : W10 m ρ c (Proc.devRef .tc main_arg6) = (m ((c : Thread nD τ).loc main_arg6)) := (W10_of_ne m ρ c main_arg6 (by decide)).trans (w9_arg6 m ρ c)
theorem w10_h : W10 m ρ c (Proc.devRef .tc main_v53_0) = Cert.Gcn.prod (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (m ((c : Thread nD τ).loc main_arg5)) :=
  (W10_arr m ρ c 4).trans ((Reg2.final4 (V9 m ρ) c).trans (congr2 Cert.Gcn.prod (w9_x m ρ c) (w9_arg5 m ρ c)))
theorem w10_g : W10 m ρ c (Proc.devRef .tc main_v53_1) = Cert.Gcn.gateR (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (m ((c : Thread nD τ).loc main_arg9)) (Cert.Gcn.asRow (m ((c : Thread nD τ).loc main_arg10))) :=
  (W10_arr m ρ c 5).trans ((Reg2.final5 (V9 m ρ) c).trans (congr3 Cert.Gcn.gateR (w9_x m ρ c) (w9_arg9 m ρ c) (w9_row m ρ c)))

/-! ## Up to the fourth launch -/
theorem w15_x : W15 m ρ c (Proc.devRef .tc main_v51) = (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := (Host.keep3_main_v51 (W10 m ρ c)).trans (w10_x m ρ c)
theorem w15_g : W15 m ρ c (Proc.devRef .tc main_v53_1) = Cert.Gcn.gateR (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (m ((c : Thread nD τ).loc main_arg9)) (Cert.Gcn.asRow (m ((c : Thread nD τ).loc main_arg10))) :=
  (Host.keep3_main_v53_1 (W10 m ρ c)).trans (w10_g m ρ c)
theorem w15_a : W15 m ρ c (Proc.devRef .tc main_v101) = Cert.Gcn.agg (Cert.Gcn.prod (Cert.Gcn.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) (m ((c : Thread nD τ).loc main_arg5))) (m ((c : Thread nD τ).loc main_arg1)) (m ((c : Thread nD τ).loc main_arg2)) :=
  (Host.agg3 (W10 m ρ c)).trans (congr3 Cert.Gcn.agg (w10_h m ρ c) (w10_arg1 m ρ c) (w10_arg2 m ρ c))
theorem w15_row : W15 m ρ c (Proc.devRef .tc main_v102) = Cert.Gcn.asRow (m ((c : Thread nD τ).loc main_arg6)) :=
  (Host.row3 (W10 m ρ c)).trans ((congrArg (fun b => shapeCast S1x96 b shapeCasts_S96_S1x96) (w10_arg6 m ρ c)).trans (row_eq _))

/-! ## The result -/

/-- The result array after the run is the two layers applied to the arguments. -/
theorem result_eq : W16 m ρ c (Proc.devRef .tc main_v103)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W16_arr m ρ c 4).trans ((Reg3.final4 (V15 m ρ) c).trans
    (congr4 Cert.Gcn.mixR (w15_x m ρ c) (w15_g m ρ c) (w15_a m ρ c) (w15_row m ρ c)))

/-- The kernel program's run: it terminates without a fault, the result array the network of the arguments, the
    arguments unchanged. -/
theorem run : θ_run defs (onTc (τ := τ) (main (F := Ideal))) ⟨m, fun _ => 0, ρ⟩ (fun r => ∀ c : Dev nD,
      r.2.mem ((c.tc : Thread nD τ).loc main_v103)
        = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.Whole.run m ρ)

end Cert.KernelIdeal.Net

end
-- ==== Proof.lean ====
/-
  The certificate: a two-layer graph convolution with gated residuals, computed by a kernel program of four tiled
  launches among host operations, against a plain reference.

  At the ideal values both programs end with the same array: the two layers of `Cert.Gcn.net` applied to the
  arguments. The reference's run, read one operation at a time, is that function verbatim. The kernel program's
  launches each compute a whole-array function tile by tile (the matrix products and the gate; the gated residual
  with the rectifier), the host operations between them are the reference's edge aggregation, and the kernel's
  logistic operation is the reference's `1 / (1 + exp (-v))`. No law of arithmetic beyond the matrix product as a
  sum and `1` being the number one is used, so the precondition is never opened. The three frame claims are the
  generated frames; nothing was idealized away, so the preservation claim is trivial.
-/
import proofs.«121213_j7988639171255_1_alg».proof.Defs
import proofs.«121213_j7988639171255_1_alg».proof.Proof.Gen.Kernel
import proofs.«121213_j7988639171255_1_alg».proof.Proof.Gen.Kernel.Skeleton
import proofs.«121213_j7988639171255_1_alg».proof.Proof.Gen.Kernel.Launch
import proofs.«121213_j7988639171255_1_alg».proof.Proof.Gen.Kernel.Points
import proofs.«121213_j7988639171255_1_alg».proof.Proof.Gen.Kernel.Frame
import proofs.«121213_j7988639171255_1_alg».proof.Proof.Gen.KernelIdeal
import proofs.«121213_j7988639171255_1_alg».proof.Proof.Gen.KernelIdeal.Skeleton
import proofs.«121213_j7988639171255_1_alg».proof.Proof.Gen.KernelIdeal.Launch
import proofs.«121213_j7988639171255_1_alg».proof.Proof.Gen.KernelIdeal.Points
import proofs.«121213_j7988639171255_1_alg».proof.Proof.Gen.KernelIdeal.Frame
import proofs.«121213_j7988639171255_1_alg».proof.Proof.Gen.ReferenceIdeal
import proofs.«121213_j7988639171255_1_alg».proof.Proof.Gen.ReferenceIdeal.Run
import proofs.«121213_j7988639171255_1_alg».proof.Proof.Gen.ReferenceIdeal.Read
import proofs.«121213_j7988639171255_1_alg».proof.Proof.Gen.Pre_finite_inputs
import proofs.«121213_j7988639171255_1_alg».proof.Proof.Spec
import proofs.«121213_j7988639171255_1_alg».proof.Proof.Net
import Idealize.ShloMosaic.Adequacy
import Idealize.ShloMosaic.Init

noncomputable section

namespace Cert.Proof

open Idealize.ShloMosaic Idealize.SL.Sem

/-- The kernel program as printed runs, faults nowhere and leaves its arguments as launched. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq, Cert.Gcn.reference_eq]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
